-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S2x524288 : Shape := ⟨2, ![2, 524288]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x64 .f32) (main_arg1 : IVec S2x524288 32) (main_arg2 : FVec F S64x64 .f32) (main_arg3 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x64 : Shape := ⟨2, ![16384, 64]⟩
abbrev S2x524288 : Shape := ⟨2, ![2, 524288]⟩
abbrev S64x64 : Shape := ⟨2, ![64, 64]⟩
abbrev S64 : Shape := ⟨1, ![64]⟩
abbrev S1x524288 : Shape := ⟨2, ![1, 524288]⟩
abbrev S524288 : Shape := ⟨1, ![524288]⟩
abbrev S16384 : Shape := ⟨1, ![16384]⟩
abbrev S540672 : Shape := ⟨1, ![540672]⟩
abbrev S_ : Shape := ⟨0, ![]⟩
abbrev S540672x1 : Shape := ⟨2, ![540672, 1]⟩
abbrev S16384x1 : Shape := ⟨2, ![16384, 1]⟩
abbrev S2048x64 : Shape := ⟨2, ![2048, 64]⟩
abbrev S2048x1 : Shape := ⟨2, ![2048, 1]⟩
abbrev S540672x64 : Shape := ⟨2, ![540672, 64]⟩
abbrev S1x64 : Shape := ⟨2, ![1, 64]⟩
abbrev S16384x16384 : Shape := ⟨2, ![16384, 16384]⟩
abbrev S2048x2048 : Shape := ⟨2, ![2048, 2048]⟩

abbrev nBuf : Space → Nat
  | .hbm => 45
  | .vmem => 18
  | .smem => 0
  | _ => 0

abbrev bufTy : (tb : Table) → Fin (tcTables nBuf tb) → BufTy
  | .hbm, ⟨0, _⟩ => ⟨S16384x64, .f32⟩
  | .hbm, ⟨1, _⟩ => ⟨S2x524288, .i32⟩
  | .hbm, ⟨2, _⟩ => ⟨S64x64, .f32⟩
  | .hbm, ⟨3, _⟩ => ⟨S64, .f32⟩
  | .hbm, ⟨4, _⟩ => ⟨S1x524288, .i32⟩
  | .hbm, ⟨5, _⟩ => ⟨S524288, .i32⟩
  | .hbm, ⟨6, _⟩ => ⟨S1x524288, .i32⟩
  | .hbm, ⟨7, _⟩ => ⟨S524288, .i32⟩
  | .hbm, ⟨8, _⟩ => ⟨S16384, .i32⟩
  | .hbm, ⟨9, _⟩ => ⟨S540672, .i32⟩
  | .hbm, ⟨10, _⟩ => ⟨S540672, .i32⟩
  | .hbm, ⟨11, _⟩ => ⟨S_, .f32⟩
  | .hbm, ⟨12, _⟩ => ⟨S540672, .f32⟩
  | .hbm, ⟨13, _⟩ => ⟨S_, .f32⟩
  | .hbm, ⟨14, _⟩ => ⟨S16384, .f32⟩
  | .hbm, ⟨15, _⟩ => ⟨S540672x1, .i32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .i1⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384x1, .f32⟩
  | .hbm, ⟨26, _⟩ => ⟨S16384x64, .f32⟩
  | .hbm, ⟨27, _⟩ => ⟨S_, .i32⟩
  | .hbm, ⟨28, _⟩ => ⟨S540672, .i32⟩
  | .hbm, ⟨29, _⟩ => ⟨S540672, .i1⟩
  | .hbm, ⟨30, _⟩ => ⟨S_, .i32⟩
  | .hbm, ⟨31, _⟩ => ⟨S540672, .i32⟩
  | .hbm, ⟨32, _⟩ => ⟨S540672, .i32⟩
  | .hbm, ⟨33, _⟩ => ⟨S540672, .i32⟩
  | .hbm, ⟨34, _⟩ => ⟨S540672x1, .i32⟩
  | .hbm, ⟨35, _⟩ => ⟨S540672x64, .f32⟩
  | .hbm, ⟨36, _⟩ => ⟨S_, .f32⟩
  | .hbm, ⟨37, _⟩ => ⟨S16384x64, .f32⟩
  | .hbm, ⟨38, _⟩ => ⟨S540672x1, .i32⟩
  | .hbm, ⟨39, _⟩ => ⟨S16384x64, .f32⟩
  | .hbm, ⟨40, _⟩ => ⟨S16384x64, .f32⟩
  | .hbm, ⟨41, _⟩ => ⟨S16384x64, .f32⟩
  | .hbm, ⟨42, _⟩ => ⟨S1x64, .f32⟩
  | .hbm, ⟨43, _⟩ => ⟨S16384x64, .bf16⟩
  | .hbm, ⟨44, _⟩ => ⟨S16384x16384, .f32⟩
  | .local _ .vmem, ⟨0, _⟩ => ⟨S2048x64, .f32⟩
  | .local _ .vmem, ⟨1, _⟩ => ⟨S2048x64, .f32⟩
  | .local _ .vmem, ⟨2, _⟩ => ⟨S64x64, .f32⟩
  | .local _ .vmem, ⟨3, _⟩ => ⟨S2048x1, .f32⟩
  | .local _ .vmem, ⟨4, _⟩ => ⟨S2048x1, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S1x64, .f32⟩
  | .local _ .vmem, ⟨10, _⟩ => ⟨S2048x64, .bf16⟩
  | .local _ .vmem, ⟨11, _⟩ => ⟨S2048x64, .bf16⟩
  | .local _ .vmem, ⟨12, _⟩ => ⟨S2048x64, .bf16⟩
  | .local _ .vmem, ⟨13, _⟩ => ⟨S2048x64, .bf16⟩
  | .local _ .vmem, ⟨14, _⟩ => ⟨S2048x64, .bf16⟩
  | .local _ .vmem, ⟨15, _⟩ => ⟨S2048x64, .bf16⟩
  | .local _ .vmem, ⟨16, _⟩ => ⟨S2048x2048, .f32⟩
  | .local _ .vmem, ⟨17, _⟩ => ⟨S2048x2048, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S16384_S540672_d0 : Shape.Concatenates [S524288, S16384] S540672 0
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  shapeCasts_S16384_S16384x1 : S16384.ShapeCasts S16384x1
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  bcast_S_S16384x64 : S_.BroadcastsInDim S16384x64 (![] : Fin 0 → Fin S16384x64.rank)
  bcast_S16384x1_S16384x64_0_1 : S16384x1.BroadcastsInDim S16384x64 (![0, 1] : Fin 2 → Fin S16384x64.rank)
  shapeCasts_S64_S1x64 : S64.ShapeCasts S1x64
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  packedbf16_S2048x64_S2048x64_0_0 : (Rect.unit (s := S2048x64) ![0, 0] S2048x64.size inb_S2048x64_S2048x64_0_0).PackedRows (EltTy.packing .bf16)
  inb_S2048x2048_S2048x2048_0_0 : ∀ a, (![0, 0] : Fin 2 → Nat) a + S2048x2048.size a ≤ S2048x2048.size a
  h_S2048x2048 : 0 < S2048x2048.numel
  scatter_S16384_S540672x1_S540672_n_0_0_1_wf : ScatterDims.WF S16384 S540672x1 S540672 [] [0] [0] 1
  dot_S2048x64_S64x64_S2048x64_1_0_0_1_n_n_wf : DotDims.WF S2048x64 S64x64 S2048x64 [1] [0] [0] [1] [] []
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .f32 = 32 ∨ (Rect.block (s := S16384x64) S2048x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .bf16 = 32 ∨ (Rect.block (s := S16384x64) S2048x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S16384x64.size a
  hwx2_0 : ∀ i : grid2.Coords, EltTy.bits .bf16 = 32 ∨ (Rect.block (s := S16384x64) S2048x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S16384x64.size a
  hwx2_1 : ∀ i : grid2.Coords, EltTy.bits .bf16 = 32 ∨ (Rect.block (s := S16384x64) S2048x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S16384x16384.size a
  hwx2_2 : ∀ i : grid2.Coords, EltTy.bits .f32 = 32 ∨ (Rect.block (s := S16384x16384) S2048x2048.size (cc2_transform_2 i) (hinb2_2 i)).WholeWords (EltTy.packing .f32)

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v30) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S2048x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x64 : Shape := ⟨2, ![16384, 64]⟩
abbrev S2x524288 : Shape := ⟨2, ![2, 524288]⟩
abbrev S64x64 : Shape := ⟨2, ![64, 64]⟩
abbrev S64 : Shape := ⟨1, ![64]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S540672x64 : Shape := ⟨2, ![540672, 64]⟩
abbrev S1x64 : Shape := ⟨2, ![1, 64]⟩
abbrev S64x16384 : Shape := ⟨2, ![64, 16384]⟩
abbrev S16384x16384 : Shape := ⟨2, ![16384, 16384]⟩

abbrev nBuf : Space → Nat
  | .hbm => 69
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S2x524288, .i32⟩
  | .hbm, ⟨2, _⟩ => ⟨S64x64, .f32⟩
  | .hbm, ⟨3, _⟩ => ⟨S64, .f32⟩
  | .hbm, ⟨4, _⟩ => ⟨S16384, .i32⟩
  | .hbm, ⟨5, _⟩ => ⟨S1x524288, .i32⟩
  | .hbm, ⟨6, _⟩ => ⟨S524288, .i32⟩
  | .hbm, ⟨7, _⟩ => ⟨S540672, .i32⟩
  | .hbm, ⟨8, _⟩ => ⟨S1x524288, .i32⟩
  | .hbm, ⟨9, _⟩ => ⟨S524288, .i32⟩
  | .hbm, ⟨10, _⟩ => ⟨S540672, .i32⟩
  | .hbm, ⟨11, _⟩ => ⟨S_, .f32⟩
  | .hbm, ⟨12, _⟩ => ⟨S540672, .f32⟩
  | .hbm, ⟨13, _⟩ => ⟨S_, .f32⟩
  | .hbm, ⟨14, _⟩ => ⟨S16384, .f32⟩
  | .hbm, ⟨15, _⟩ => ⟨S540672x1, .i32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .i1⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .i32⟩
  | .hbm, ⟨26, _⟩ => ⟨S540672, .i32⟩
  | .hbm, ⟨27, _⟩ => ⟨S540672, .i1⟩
  | .hbm, ⟨28, _⟩ => ⟨S_, .i32⟩
  | .hbm, ⟨29, _⟩ => ⟨S540672, .i32⟩
  | .hbm, ⟨30, _⟩ => ⟨S540672, .i32⟩
  | .hbm, ⟨31, _⟩ => ⟨S540672, .i32⟩
  | .hbm, ⟨32, _⟩ => ⟨S540672x1, .i32⟩
  | .hbm, ⟨33, _⟩ => ⟨S540672, .f32⟩
  | .hbm, ⟨34, _⟩ => ⟨S_, .i32⟩
  | .hbm, ⟨35, _⟩ => ⟨S540672, .i32⟩
  | .hbm, ⟨36, _⟩ => ⟨S540672, .i1⟩
  | .hbm, ⟨37, _⟩ => ⟨S_, .i32⟩
  | .hbm, ⟨38, _⟩ => ⟨S540672, .i32⟩
  | .hbm, ⟨39, _⟩ => ⟨S540672, .i32⟩
  | .hbm, ⟨40, _⟩ => ⟨S540672, .i32⟩
  | .hbm, ⟨41, _⟩ => ⟨S540672x1, .i32⟩
  | .hbm, ⟨42, _⟩ => ⟨S540672, .f32⟩
  | .hbm, ⟨43, _⟩ => ⟨S540672, .f32⟩
  | .hbm, ⟨44, _⟩ => ⟨S16384x64, .f32⟩
  | .hbm, ⟨45, _⟩ => ⟨S_, .i32⟩
  | .hbm, ⟨46, _⟩ => ⟨S540672, .i32⟩
  | .hbm, ⟨47, _⟩ => ⟨S540672, .i1⟩
  | .hbm, ⟨48, _⟩ => ⟨S_, .i32⟩
  | .hbm, ⟨49, _⟩ => ⟨S540672, .i32⟩
  | .hbm, ⟨50, _⟩ => ⟨S540672, .i32⟩
  | .hbm, ⟨51, _⟩ => ⟨S540672, .i32⟩
  | .hbm, ⟨52, _⟩ => ⟨S540672x1, .i32⟩
  | .hbm, ⟨53, _⟩ => ⟨S540672x64, .f32⟩
  | .hbm, ⟨54, _⟩ => ⟨S540672x1, .f32⟩
  | .hbm, ⟨55, _⟩ => ⟨S540672x64, .f32⟩
  | .hbm, ⟨56, _⟩ => ⟨S540672x64, .f32⟩
  | .hbm, ⟨57, _⟩ => ⟨S_, .f32⟩
  | .hbm, ⟨58, _⟩ => ⟨S16384x64, .f32⟩
  | .hbm, ⟨59, _⟩ => ⟨S540672x1, .i32⟩
  | .hbm, ⟨60, _⟩ => ⟨S16384x64, .f32⟩
  | .hbm, ⟨61, _⟩ => ⟨S1x64, .f32⟩
  | .hbm, ⟨62, _⟩ => ⟨S16384x64, .f32⟩
  | .hbm, ⟨63, _⟩ => ⟨S16384x64, .f32⟩
  | .hbm, ⟨64, _⟩ => ⟨S_, .f32⟩
  | .hbm, ⟨65, _⟩ => ⟨S16384x64, .f32⟩
  | .hbm, ⟨66, _⟩ => ⟨S16384x64, .f32⟩
  | .hbm, ⟨67, _⟩ => ⟨S64x16384, .f32⟩
  | .hbm, ⟨68, _⟩ => ⟨S16384x16384, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S16384x64_S64x16384_1_0 : S16384x64.Transposes [1, 0] S64x16384
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x64_S64x64_S16384x64_1_0_0_1_n_n_wf : DotDims.WF S16384x64 S64x64 S16384x64 [1] [0] [0] [1] [] []
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S16384x64_S64x16384_S16384x16384_1_0_0_1_n_n_wf : DotDims.WF S16384x64 S64x16384 S16384x16384 [1] [0] [0] [1] [] []

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.KnReg0.lean ====
/-
  The first tiled stage, point by point: at grid point t the body finds rows 2048·t … 2048·t + 2047 of x, the whole
  of W and the same rows of the factor column in its three input buffers, and leaves in its output buffer the one
  store of the body — the product of the row block with W, every row scaled by its factor — which the write-back
  copies to the same rows of the result.  Stated for any reading of the floats.
-/
import proofs.«122015_j3745211482437_2_alg».proof.Proof.Gen.Kernel.Launch
import proofs.«122015_j3745211482437_2_alg».proof.Proof.Gen.Kernel.Skeleton
import proofs.«122015_j3745211482437_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input buffer holds its window's block at every point, fetched there or not: where the block is not fetched
    anew its index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S2048x64 := Rect.unit (s := S2048x64) ![0, 0] S2048x64.size inb_S2048x64_S2048x64_0_0
abbrev rW0 : Rect S64x64 := Rect.unit (s := S64x64) ![0, 0] S64x64.size inb_S64x64_S64x64_0_0
abbrev rD0 : Rect S2048x1 := Rect.unit (s := S2048x1) ![0, 0] S2048x1.size inb_S2048x1_S2048x1_0_0

/-- What the body leaves in the output buffer: its one store, of the arithmetic of the three loads. -/
def out0_3 (x0 : Vec F S2048x64 .f32) (x1 : Vec F S64x64 .f32) (x2 : Vec F S2048x1 .f32) : Vec F S2048x64 .f32 :=
  View.canon [⟨rX0, k0_pay1 (View.ld x0 rX0) (View.ld x1 rW0) (View.ld x2 rD0)⟩]

/-- The store covers the buffer. -/
theorem cover0_3 (p0 : Vec F S2048x64 .f32) (y : S2048x64.Idx) :
    ∃ pc ∈ ([⟨rX0, p0⟩] : List (View.Piece (Elt F) S2048x64 .f32)), y ∈ pc.1.set :=
  View.cover_of_tiled [⟨rX0, p0⟩] S2048x64.size (by rfl) y

/-! ## The body's triple -/

set_option maxHeartbeats 1000000 in
/-- The body on whole buffers, the inputs' at contents x0, x1, x2 and the output's at anything, runs to the
    continuation holding the inputs' as they were and the output's at `out0_3` of them. -/
theorem sound_kernel0 (c : Dev nD) (E : Set ℕ) (i : grid0.Coords) (arg1 : Memref sig .tc .vmem S2048x64 .f32) (harg1 : arg1.IsWhole) (arg2 : Memref sig .tc .vmem S64x64 .f32) (harg2 : arg2.IsWhole) (arg3 : Memref sig .tc .vmem S2048x1 .f32) (harg3 : arg3.IsWhole) (arg4 : Memref sig .tc .vmem S2048x64 .f32) (harg4 : arg4.IsWhole)
    (x0 : Vec F S2048x64 .f32) (x1 : Vec F S64x64 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The stage's proof data -/

/-- The arrays as the stage finds them; after the body at point t each input buffer at its block and the output
    buffer at `out0_3` of the input blocks; the untouched rest as the invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KnReg1.lean ====
/-
  The second tiled stage, point by point: at grid point t the body finds rows 2048·t … 2048·t + 2047 of the aggregate
  and the bias row in its two input buffers, and leaves in its output buffer its one store — bias added, the positive
  part taken, the result narrowed — which the write-back copies to the same rows of the result.  Stated for any
  reading of the floats.
-/
import proofs.«122015_j3745211482437_2_alg».proof.Proof.Gen.Kernel.Launch
import proofs.«122015_j3745211482437_2_alg».proof.Proof.Gen.Kernel.Skeleton
import proofs.«122015_j3745211482437_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input buffer holds its window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rX1 : Rect S2048x64 := Rect.unit (s := S2048x64) ![0, 0] S2048x64.size inb_S2048x64_S2048x64_0_0
abbrev rB1 : Rect S1x64 := Rect.unit (s := S1x64) ![0, 0] S1x64.size inb_S1x64_S1x64_0_0

/-- What the body leaves in the output buffer: its one store, of the arithmetic of the two loads. -/
def out1_2 (x0 : Vec F S2048x64 .f32) (x1 : Vec F S1x64 .f32) : Vec F S2048x64 .bf16 :=
  View.canon [⟨rX1, k1_pay1 (View.ld x0 rX1) (View.ld x1 rB1)⟩]

/-- The store covers the buffer. -/
theorem cover1_2 (p0 : Vec F S2048x64 .bf16) (y : S2048x64.Idx) :
    ∃ pc ∈ ([⟨rX1, p0⟩] : List (View.Piece (Elt F) S2048x64 .bf16)), y ∈ pc.1.set :=
  View.cover_of_tiled [⟨rX1, p0⟩] S2048x64.size (by rfl) y

/-! ## The body's triple -/

set_option maxHeartbeats 1000000 in
/-- The body on whole buffers, the inputs' at contents x0, x1 and the output's at anything, runs to the continuation
    holding the inputs' as they were and the output's at `out1_2` of them. -/
theorem sound_kernel1 (c : Dev nD) (E : Set ℕ) (i : grid1.Coords) (arg1 : Memref sig .tc .vmem S2048x64 .f32) (harg1 : arg1.IsWhole) (arg2 : Memref sig .tc .vmem S1x64 .f32) (harg2 : arg2.IsWhole) (arg3 : Memref sig .tc .vmem S2048x64 .bf16) (harg3 : arg3.IsWhole)
    (x0 : Vec F S2048x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__biasrelu_kernel i arg1 harg1 arg2 harg2 arg3 harg3) K := by
  simp only [cc1__biasrelu_kernel_eq_skeleton]; unfold cc1__biasrelu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The stage's proof data -/

/-- The arrays as the stage finds them; after the body at point t each input buffer at its block and the output
    buffer at `out1_2` of the input blocks; the untouched rest as the invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KnReg2.lean ====
/-
  The third tiled stage, point by point: at grid point t = 8·a + b the body finds rows 2048·a … of the narrowed
  features in its first input buffer and rows 2048·b … of the SAME array in its second, and leaves in its output
  buffer its one store — all inner products of a row of the first block with a row of the second — which the
  write-back copies to the block (a, b) of the result.  The one array behind the two input windows is read-only
  here; each window holds it at half the full share.  Stated for any reading of the floats.
-/
import proofs.«122015_j3745211482437_2_alg».proof.Proof.Gen.Kernel.Launch
import proofs.«122015_j3745211482437_2_alg».proof.Proof.Gen.Kernel.Skeleton
import proofs.«122015_j3745211482437_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input buffer holds its window's block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rX2 : Rect S2048x64 := Rect.unit (s := S2048x64) ![0, 0] S2048x64.size inb_S2048x64_S2048x64_0_0
abbrev rO2 : Rect S2048x2048 := Rect.unit (s := S2048x2048) ![0, 0] S2048x2048.size inb_S2048x2048_S2048x2048_0_0

/-- What the body leaves in the output buffer: its one store, of the arithmetic of the two loads. -/
def out2_2 (x0 : Vec F S2048x64 .bf16) (x1 : Vec F S2048x64 .bf16) : Vec F S2048x2048 .f32 :=
  View.canon [⟨rO2, k2_pay1 (View.ld x0 rX2) (View.ld x1 rX2)⟩]

/-- The store covers the buffer. -/
theorem cover2_2 (p0 : Vec F S2048x2048 .f32) (y : S2048x2048.Idx) :
    ∃ pc ∈ ([⟨rO2, p0⟩] : List (View.Piece (Elt F) S2048x2048 .f32)), y ∈ pc.1.set :=
  View.cover_of_tiled [⟨rO2, p0⟩] S2048x2048.size (by rfl) y

/-! ## The body's triple -/

set_option maxHeartbeats 1000000 in
/-- The body on whole buffers, the inputs' at contents x0, x1 and the output's at anything, runs to the continuation
    holding the inputs' as they were and the output's at `out2_2` of them. -/
theorem sound_kernel2 (c : Dev nD) (E : Set ℕ) (i : grid2.Coords) (arg2 : Memref sig .tc .vmem S2048x64 .bf16) (harg2 : arg2.IsWhole) (arg3 : Memref sig .tc .vmem S2048x64 .bf16) (harg3 : arg3.IsWhole) (arg4 : Memref sig .tc .vmem S2048x2048 .f32) (harg4 : arg4.IsWhole)
    (x0 : Vec F S2048x64 .bf16) (x1 : Vec F S2048x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__outer_kernel i arg2 harg2 arg3 harg3 arg4 harg4) K := by
  simp only [cc2__outer_kernel_eq_skeleton]; unfold cc2__outer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The stage's proof data -/

/-- The arrays as the stage finds them; after the body at point t each input buffer at its block and the output
    buffer at `out2_2` of the input blocks; the untouched rest as the invariant; nothing owed; the one array behind
    the two input windows held by each at one half of the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KnVals.lean ====
/-
  The contents of every buffer at each boundary of the program's main sequence, on one core: the launch contents,
  then the operations before the first stage applied, then the first stage's result array replaced by what its
  write-backs leave (every other buffer untouched), then the operations between the stages applied, then the second
  and the third stage's result arrays replaced likewise.  No operation and no stage writes an argument array, so
  the four arguments read through the whole chain as launched.  Stated for any reading of the floats.
-/
import proofs.«122015_j3745211482437_2_alg».proof.Proof.KnReg0
import proofs.«122015_j3745211482437_2_alg».proof.Proof.KnReg1
import proofs.«122015_j3745211482437_2_alg».proof.Proof.KnReg2
import proofs.«122015_j3745211482437_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The boundaries -/

/-- Before the first stage: the launch contents with the operations before it applied. -/
abbrev W3 (c : Dev nD) : Valuation τ sig (Elt F) := V3 m c
/-- The same, read at the core's own references. -/
abbrev E3 : (c : Dev nD) → (b : Ref sig .tc) → Buf (Elt F) ((c : Thread nD τ).loc b) := fun c b => W3 m c b
/-- What the first stage's write-backs leave in its result array. -/
def o4 (c : Dev nD) : Buf (Elt F) ((c : Thread nD τ).loc main_v16) := (dat0 (E3 m) c).arrAt 3 cfg0.N
/-- After the first stage. -/
def W4 (c : Dev nD) : Valuation τ sig (Elt F) := Function.update (W3 m c) main_v16 (o4 m c)
/-- Before the second stage: the operations between the stages applied. -/
abbrev W5 (c : Dev nD) : Valuation τ sig (Elt F) := StableHlo.after hostOps1 (W4 m c)
abbrev E5 : (c : Dev nD) → (b : Ref sig .tc) → Buf (Elt F) ((c : Thread nD τ).loc b) := fun c b => W5 m c b
/-- What the second stage's write-backs leave in its result array. -/
def o6 (c : Dev nD) : Buf (Elt F) ((c : Thread nD τ).loc main_v30) := (dat1 (E5 m) c).arrAt 2 cfg1.N
/-- After the second stage (the third starts at once). -/
def W6 (c : Dev nD) : Valuation τ sig (Elt F) := Function.update (W5 m c) main_v30 (o6 m c)
abbrev E6 : (c : Dev nD) → (b : Ref sig .tc) → Buf (Elt F) ((c : Thread nD τ).loc b) := fun c b => W6 m c b
/-- What the third stage's write-backs leave in its result array. -/
def o7 (c : Dev nD) : Buf (Elt F) ((c : Thread nD τ).loc main_v31) := (dat2 (E6 m) c).arrAt 2 cfg2.N
/-- At the end. -/
def W7 (c : Dev nD) : Valuation τ sig (Elt F) := Function.update (W6 m c) main_v31 (o7 m c)
abbrev E7 : (c : Dev nD) → (b : Ref sig .tc) → Buf (Elt F) ((c : Thread nD τ).loc b) := fun c b => W7 m c b

/-! ## What each step leaves alone -/

theorem W4_of (c : Dev nD) (r : Ref sig .tc) (h : r ≠ main_v16) : W4 m c r = W3 m c r := by
  unfold W4; exact Function.update_of_ne (StableHlo.devRef_ne_of_ne h : (Proc.devRef .tc r : DevRef τ sig) ≠ Proc.devRef .tc main_v16) _ _
theorem W4_same (c : Dev nD) : W4 m c main_v16 = o4 m c := by unfold W4; exact Function.update_self ..
theorem W5_of (c : Dev nD) (r : Ref sig .tc) (h : r ∉ hostOps1_W) : W5 m c r = W4 m c r :=
  StableHlo.after_of_writes_sub hostOps1 _ hostOps1_writes h
theorem W6_of (c : Dev nD) (r : Ref sig .tc) (h : r ≠ main_v30) : W6 m c r = W5 m c r := by
  unfold W6; exact Function.update_of_ne (StableHlo.devRef_ne_of_ne h : (Proc.devRef .tc r : DevRef τ sig) ≠ Proc.devRef .tc main_v30) _ _
theorem W6_same (c : Dev nD) : W6 m c main_v30 = o6 m c := by unfold W6; exact Function.update_self ..
theorem W7_of (c : Dev nD) (r : Ref sig .tc) (h : r ≠ main_v31) : W7 m c r = W6 m c r := by
  unfold W7; exact Function.update_of_ne (StableHlo.devRef_ne_of_ne h : (Proc.devRef .tc r : DevRef τ sig) ≠ Proc.devRef .tc main_v31) _ _
theorem W7_same (c : Dev nD) : W7 m c main_v31 = o7 m c := by unfold W7; exact Function.update_self ..

/-! ## The arguments end as launched -/

theorem W3_arg (c : Dev nD) (r : Ref sig .tc) (h0 : r ∉ hostOps0_W) (h1 : r ∉ hostOps0_1_W) (h2 : r ∉ hostOps0_2_W) :
    W3 m c r = m ((c : Thread nD τ).loc r) :=
  (V3_of m c r h2).trans <| (V2_of m c r h1).trans <| (V1_of m c r h0).trans rfl

theorem W7_arg (c : Dev nD) (r : Ref sig .tc) (h0 : r ∉ hostOps0_W) (h1 : r ∉ hostOps0_1_W) (h2 : r ∉ hostOps0_2_W)
    (h4 : r ≠ main_v16) (h5 : r ∉ hostOps1_W) (h6 : r ≠ main_v30) (h7 : r ≠ main_v31) :
    W7 m c r = m ((c : Thread nD τ).loc r) :=
  (W7_of m c r h7).trans <| (W6_of m c r h6).trans <| (W5_of m c r h5).trans <| (W4_of m c r h4).trans <| W3_arg m c r h0 h1 h2

theorem W7_main_arg0 (c : Dev nD) : W7 m c main_arg0 = m ((c : Thread nD τ).loc main_arg0) :=
  W7_arg m c main_arg0 (by decide) (by decide) (by decide) (by decide) (by decide) (by decide) (by decide)
theorem W7_main_arg1 (c : Dev nD) : W7 m c main_arg1 = m ((c : Thread nD τ).loc main_arg1) :=
  W7_arg m c main_arg1 (by decide) (by decide) (by decide) (by decide) (by decide) (by decide) (by decide)
theorem W7_main_arg2 (c : Dev nD) : W7 m c main_arg2 = m ((c : Thread nD τ).loc main_arg2) :=
  W7_arg m c main_arg2 (by decide) (by decide) (by decide) (by decide) (by decide) (by decide) (by decide)
theorem W7_main_arg3 (c : Dev nD) : W7 m c main_arg3 = m ((c : Thread nD τ).loc main_arg3) :=
  W7_arg m c main_arg3 (by decide) (by decide) (by decide) (by decide) (by decide) (by decide) (by decide)

/-! ## Each stage's arrays at its exit: what the write-backs leave, every other buffer as entered -/

theorem hF0 (c : Dev nD) (w : Fin cfg0.W) : (dat0 (E3 m) c).arrAt w cfg0.N = W4 m c (Pipeline.arrRef spec0 w) := by
  match w with
  | ⟨0, _⟩ => exact (((dat0 (E3 m) c).arrAt_in 0 rfl _).trans (A_eq0 (E3 m) c 0)).trans (W4_of m c main_arg0 (by decide)).symm
  | ⟨1, _⟩ => exact (((dat0 (E3 m) c).arrAt_in 1 rfl _).trans (A_eq0 (E3 m) c 1)).trans (W4_of m c main_arg2 (by decide)).symm
  | ⟨2, _⟩ => exact (((dat0 (E3 m) c).arrAt_in 2 rfl _).trans (A_eq0 (E3 m) c 2)).trans (W4_of m c main_v15 (by decide)).symm
  | ⟨3, _⟩ => exact (W4_same m c).symm
theorem hrest0 (c : Dev nD) : ∀ b, b ∉ Finset.univ.image (Pipeline.arrRef spec0) → W4 m c b = W3 m c b :=
  fun b hb => W4_of m c b fun e => hb (Finset.mem_image.mpr ⟨3, Finset.mem_univ _, by rw [e]⟩)

theorem hF1 (c : Dev nD) (w : Fin cfg1.W) : (dat1 (E5 m) c).arrAt w cfg1.N = W6 m c (Pipeline.arrRef spec1 w) := by
  match w with
  | ⟨0, _⟩ => exact (((dat1 (E5 m) c).arrAt_in 0 rfl _).trans (A_eq1 (E5 m) c 0)).trans (W6_of m c main_v28 (by decide)).symm
  | ⟨1, _⟩ => exact (((dat1 (E5 m) c).arrAt_in 1 rfl _).trans (A_eq1 (E5 m) c 1)).trans (W6_of m c main_v29 (by decide)).symm
  | ⟨2, _⟩ => exact (W6_same m c).symm

theorem hrest1 (c : Dev nD) : ∀ b, b ∉ Finset.univ.image (Pipeline.arrRef spec1) → W6 m c b = W5 m c b :=
  fun b hb => W6_of m c b fun e => hb (Finset.mem_image.mpr ⟨2, Finset.mem_univ _, by rw [e]⟩)

theorem hF2 (c : Dev nD) (w : Fin cfg2.W) : (dat2 (E6 m) c).arrAt w cfg2.N = W7 m c (Pipeline.arrRef spec2 w) := by
  match w with
  | ⟨0, _⟩ => exact (((dat2 (E6 m) c).arrAt_in 0 rfl _).trans (A_eq2 (E6 m) c 0)).trans (W7_of m c main_v30 (by decide)).symm
  | ⟨1, _⟩ => exact (((dat2 (E6 m) c).arrAt_in 1 rfl _).trans (A_eq2 (E6 m) c 1)).trans (W7_of m c main_v30 (by decide)).symm
  | ⟨2, _⟩ => exact (W7_same m c).symm

theorem hrest2 (c : Dev nD) : ∀ b, b ∉ Finset.univ.image (Pipeline.arrRef spec2) → W7 m c b = W6 m c b :=
  fun b hb => W7_of m c b fun e => hb (Finset.mem_image.mpr ⟨2, Finset.mem_univ _, by rw [e]⟩)

end Cert.Kernel.Hand

end
-- ==== Proof.KnShare2.lean ====
/-
  The third stage reads ONE array through two windows.  Whole and at the full share, the array's buffer is the two
  windows' holdings of it — each the whole buffer at one half of the full share, at the same contents — and back;
  the result array is held whole at the full share throughout.
-/
import proofs.«122015_j3745211482437_2_alg».proof.Proof.KnReg2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffers behind the third stage's arrays, whole at the full share at contents V, ARE the stage's arrays at
    contents that read V at each window's array: the shared array's full share is the two halves. -/
theorem arrays2_eq (V0 : (c : Dev nD) → (b : Ref sig .tc) → Buf (Elt F) ((c : Thread nD τ).loc b)) (c : Dev nD)
    (V : (b : Ref sig .tc) → Buf (Elt F) ((c : Thread nD τ).loc b))
    (G : (w : Fin cfg2.W) → Buf (Elt F) ((cfg2.win w).arr.view.loc (c.tc : Thread nD τ)))
    (hG : ∀ w, G w = V (Pipeline.arrRef spec2 w)) :
    (Pipeline.arrBufs (Ix := Unit) (Name := ℕ) (U := UR sig nD τ) (Lvl := ℕ) spec2 c V : sProp 𝕄) ⊣⊢ (dat2 V0 c).arrays G := by
  unfold Pipeline.arrBufs Dat.arrays
  rw [bigSep_eq_bigSepL_of_eq [main_v30, main_v31] (by decide) (by decide), bigSep_W2]
  rw [(arr_whole2 0).set_eq_univ, (arr_whole2 2).set_eq_univ,
    show (dat2 V0 c).share 0 = fullShare.left from rfl, show (dat2 V0 c).share 1 = fullShare.right from rfl,
    show (dat2 V0 c).share 2 = fullShare from rfl, hG 0, hG 1, hG 2]
  show iprop(((c : Thread nD τ).loc main_v30 ↦{fullShare} V main_v30) ∗ ((c : Thread nD τ).loc main_v31 ↦{fullShare} V main_v31))
    ⊣⊢ (iprop(((c : Thread nD τ).loc main_v30 ↦{fullShare.left} V main_v30) ∗ ((c : Thread nD τ).loc main_v30 ↦{fullShare.right} V main_v30)
      ∗ ((c : Thread nD τ).loc main_v31 ↦{fullShare} V main_v31)) : sProp 𝕄)
  have hs : (((c : Thread nD τ).loc main_v30 ↦{fullShare} V main_v30) : sProp 𝕄)
      ⊢ iprop(((c : Thread nD τ).loc main_v30 ↦{fullShare.left} V main_v30) ∗ ((c : Thread nD τ).loc main_v30 ↦{fullShare.right} V main_v30)) :=
    (pointsTo_share (PosShare.mem_left_op_right fullShare)).1
  have hj : iprop(((c : Thread nD τ).loc main_v30 ↦{fullShare.left} V main_v30) ∗ ((c : Thread nD τ).loc main_v30 ↦{fullShare.right} V main_v30))
      ⊢ (((c : Thread nD τ).loc main_v30 ↦{fullShare} V main_v30) : sProp 𝕄) :=
    (pointsTo_share (PosShare.mem_left_op_right fullShare)).2
  constructor
  · iintro ⟨H0, H1⟩
    ihave H := hs $$ H0
    icases H with ⟨Hl, Hr⟩
    isplitl [Hl]; · iexact Hl
    isplitl [Hr]; · iexact Hr
    iexact H1
  · iintro ⟨Hl, Hr, H1⟩
    isplitl [Hl Hr]
    · iapply hj
      isplitl [Hl] <;> iassumption
    iexact H1

end Cert.Kernel.Hand

end
-- ==== Proof.KnRun.lean ====
/-
  The program's main sequence as seven segments — three stretches of operations, the first stage, a stretch of
  operations, the second stage, the third stage — run from the launch to the return.  Between two segments a core
  holds every unscoped buffer whole at the boundary's contents, its generator register at some state, and owes
  nothing.  Every weakly fair execution therefore terminates, and every final memory holds each unscoped buffer at
  the last boundary's contents: in particular the four arguments as launched, and the result array at what the
  third stage's write-backs leave.  Stated for any reading of the floats.
-/
import proofs.«122015_j3745211482437_2_alg».proof.Proof.KnVals
import proofs.«122015_j3745211482437_2_alg».proof.Proof.KnShare2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every stage's proof data, each at its entry contents. -/
def pd : (p : Fin 3) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
  | ⟨2, _⟩ => fun c => dat2 (E6 m) c
abbrev 𝒱n : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state, nothing owed. -/
abbrev Rst (c : Dev nD) : sProp 𝕄 := iprop((∃ r, prngReg c r) ∗ ∃ W, owes (c : Thread nD τ) (0 : CellTallies nD τ sig Unit) W)
/-- A stretch of operations as a segment, from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- The last thread state without the `owes`. -/
abbrev Tn (c : Dev nD) : sProp 𝕄 := iprop(StableHlo.held (c : Thread nD τ) (Pipeline.ucRefs τ sig) (W7 m c) ∗ ∃ r, prngReg c r)

/-! ## The stages as segments -/

set_option backward.isDefEq.respectTransparency.types false in
/-- Stage 0 as a segment: entered with every unscoped buffer at the contents before it, left with them at the
    contents after it.  Its arrays are taken out of the unscoped buffers and put back at what the write-backs
    leave; the generator register goes into the invariant and comes out; nothing is owed; no semaphore of its own. -/
def rg0 : Pipeline.RegionSeg (pcfgs (F := F)) adm (pd m) () defs₀ 𝒱n Lz lvz 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ Lz lvz 0 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pd m) launch0.win launch0.arr_whole c
      ((pd m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m) ((pd m 0 c).share_full fun _ => rfl)
      (E3 m c) (fun b => W4 m c b) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 as a segment: entered with every unscoped buffer at the contents before it, left with them at the
    contents after it.  Its arrays are taken out of the unscoped buffers and put back at what the write-backs
    leave; the generator register goes into the invariant and comes out; nothing is owed; no semaphore of its own. -/
def rg1 : Pipeline.RegionSeg (pcfgs (F := F)) adm (pd m) () defs₀ 𝒱n Lz lvz 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ Lz lvz 1 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pd m) launch1.win launch1.arr_whole c
      ((pd m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m) ((pd m 1 c).share_full fun _ => rfl)
      (E5 m c) (fun b => W6 m c b) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 2 as a segment, the last: entered with every unscoped buffer at the contents before it, left with them at
    the final contents.  The one array behind its two input windows is split into its two halves at entry and joined
    again at exit (it is only read in between); otherwise as the other stages. -/
def rg2 : Pipeline.RegionSeg (pcfgs (F := F)) adm (pd m) () defs₀ 𝒱n Lz lvz 2 where
  win := winFacts₀2
  block_pos := block_pos2
  stage_whole := stage_whole2
  K := PEmpty
  osem k := k.elim
  ho := Pipeline.OwnSemFacts.none _
  hbody c := (body_obligation2 (E6 m) c).loose
  hwaits := Pipeline.hwaits_of_owed_zero _ _ _ _ Lz lvz 2 fun _ _ => rfl
  pre c := iprop(StableHlo.held (c : Thread nD τ) (Pipeline.ucRefs τ sig) (W6 m c) ∗ Rst c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E6 m c)
  hentry c := by
    rw [Pipeline.ownSems0_none]
    have hub := Pipeline.unscopedBufs_split₀ (Ix := Unit) (Name := ℕ) (U := UR sig nD τ) (Lvl := ℕ) (Val := Elt F) cfgs 2 winFacts₀2.arr_unscoped c (E6 m c)
    rw [Pipeline.unscopedBufs_held] at hub
    have hsplit := (arrays2_eq (E6 m) c (E6 m c) ((pd m 2 c).arrAt · 0) (fun w => (A_eq2 (E6 m) c w))).1
    rw [hub]
    iintro ⟨⟨⟨Hab, Hrest⟩, Hp, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m 2 c).Φ (Fin.last _) = Pipeline.ΦA spec2 c from rfl]; unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) (Val := Elt F) cfgs 2 winFacts₀2.arr_unscoped c (E7 m c)
    rw [Pipeline.unscopedBufs_held] at hub
    have hjoin := (arrays2_eq (E6 m) c (E7 m c) ((pd m 2 c).arrAt · cfg2.N) (hF2 m c)).2
    have hrest : (Pipeline.unscopedRest (Ix := Unit) (Name := ℕ) (U := UR sig nD τ) (Lvl := ℕ) spec2 c (E6 m c) : sProp 𝕄)
        = Pipeline.unscopedRest spec2 c (E7 m c) := by
      unfold Pipeline.unscopedRest
      exact bigSep_congr fun b hb => by rw [show E7 m c b = E6 m c b from hrest2 m c b (Finset.mem_sdiff.mp hb).2]
    iintro ⟨Ha, HO, HY, Hrest⟩
    imodintro
    isplitl [Ha Hrest HY]
    · isplitl [Ha Hrest]
      · rw [hub]
        isplitl [Ha]
        · iapply hjoin; iexact Ha
        rw [show (Pipeline.unscopedRest (Ix := Unit) (Name := ℕ) (U := UR sig nD τ) (Lvl := ℕ) (cfgs 2).spec c (E7 m c) : sProp 𝕄)
          = Pipeline.unscopedRest spec2 c (E6 m c) from hrest.symm]
        iexact Hrest
      iexact HY
    unfold Pipeline.Dat.owesAt Pipeline.owesWithin
    icases HO with ⟨%W, -, HO⟩; iexists W; iexact HO

/-! ## The main sequence, and the launch -/

abbrev sgs : List (Pipeline.Seg (pcfgs (F := F)) adm (pd m) () defs₀ 𝒱n Lz lvz) :=
  [ .host (hostSeg hostOps0 hostOps0_sub hostOps0_fresh (fun c => V0 m c)),
    .host (hostSeg hostOps0_1 hostOps0_1_sub hostOps0_1_fresh (fun c => V1 m c)),
    .host (hostSeg hostOps0_2 hostOps0_2_sub hostOps0_2_fresh (fun c => V2 m c)),
    .region (rg0 m),
    .host (hostSeg hostOps1 hostOps1_sub hostOps1_fresh (W4 m)),
    .region (rg1 m),
    .region (rg2 m) ]

set_option backward.isDefEq.respectTransparency.types false in
/-- THE RUN: every weakly fair execution of the main sequence terminates, nothing faulting, and every final memory
    holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pd m) () cellOf_inj emb₁ defs₀ 𝒱n Lz lvz m ρ main (sgs m)
    (fun c Q => by
      rewrite [main_chain c, Pipeline.Seg.run_eq_chain,
        show (sgs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()) ] from rfl]
      exact .rfl)
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c)) (Tₙ := Tn m)
    (hch := ⟨fun _ => .rfl, fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

/-- The run with the result array named: it ends at what the third stage's write-backs leave. -/
theorem run_value : θ_run defs (onTc (τ := τ) (main (F := F))) ⟨m, fun _ => 0, ρ⟩ (fun r => ∀ c : Dev nD,
      r.2.mem ((c.tc : Thread nD τ).loc main_v31) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v31 (by decide))).trans (W7_same m c),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.Kernel.Hand

end
-- ==== Proof.KiReg0.lean ====
/-
  The first tiled stage, point by point: at grid point t the body finds rows 2048·t … 2048·t + 2047 of x, the whole
  of W and the same rows of the factor column in its three input buffers, and leaves in its output buffer the one
  store of the body — the product of the row block with W, every row scaled by its factor — which the write-back
  copies to the same rows of the result.  Stated for any reading of the floats.
-/
import proofs.«122015_j3745211482437_2_alg».proof.Proof.Gen.KernelIdeal.Launch
import proofs.«122015_j3745211482437_2_alg».proof.Proof.Gen.KernelIdeal.Skeleton
import proofs.«122015_j3745211482437_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input buffer holds its window's block at every point, fetched there or not: where the block is not fetched
    anew its index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S2048x64 := Rect.unit (s := S2048x64) ![0, 0] S2048x64.size inb_S2048x64_S2048x64_0_0
abbrev rW0 : Rect S64x64 := Rect.unit (s := S64x64) ![0, 0] S64x64.size inb_S64x64_S64x64_0_0
abbrev rD0 : Rect S2048x1 := Rect.unit (s := S2048x1) ![0, 0] S2048x1.size inb_S2048x1_S2048x1_0_0

/-- What the body leaves in the output buffer: its one store, of the arithmetic of the three loads. -/
def out0_3 (x0 : Vec F S2048x64 .f32) (x1 : Vec F S64x64 .f32) (x2 : Vec F S2048x1 .f32) : Vec F S2048x64 .f32 :=
  View.canon [⟨rX0, k0_pay1 (View.ld x0 rX0) (View.ld x1 rW0) (View.ld x2 rD0)⟩]

/-- The store covers the buffer. -/
theorem cover0_3 (p0 : Vec F S2048x64 .f32) (y : S2048x64.Idx) :
    ∃ pc ∈ ([⟨rX0, p0⟩] : List (View.Piece (Elt F) S2048x64 .f32)), y ∈ pc.1.set :=
  View.cover_of_tiled [⟨rX0, p0⟩] S2048x64.size (by rfl) y

/-! ## The body's triple -/

set_option maxHeartbeats 1000000 in
/-- The body on whole buffers, the inputs' at contents x0, x1, x2 and the output's at anything, runs to the
    continuation holding the inputs' as they were and the output's at `out0_3` of them. -/
theorem sound_kernel0 (c : Dev nD) (E : Set ℕ) (i : grid0.Coords) (arg1 : Memref sig .tc .vmem S2048x64 .f32) (harg1 : arg1.IsWhole) (arg2 : Memref sig .tc .vmem S64x64 .f32) (harg2 : arg2.IsWhole) (arg3 : Memref sig .tc .vmem S2048x1 .f32) (harg3 : arg3.IsWhole) (arg4 : Memref sig .tc .vmem S2048x64 .f32) (harg4 : arg4.IsWhole)
    (x0 : Vec F S2048x64 .f32) (x1 : Vec F S64x64 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The stage's proof data -/

/-- The arrays as the stage finds them; after the body at point t each input buffer at its block and the output
    buffer at `out0_3` of the input blocks; the untouched rest as the invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiReg1.lean ====
/-
  The second tiled stage, point by point: at grid point t the body finds rows 2048·t … 2048·t + 2047 of the aggregate
  and the bias row in its two input buffers, and leaves in its output buffer its one store — bias added, the positive
  part taken, the result narrowed — which the write-back copies to the same rows of the result.  Stated for any
  reading of the floats.
-/
import proofs.«122015_j3745211482437_2_alg».proof.Proof.Gen.KernelIdeal.Launch
import proofs.«122015_j3745211482437_2_alg».proof.Proof.Gen.KernelIdeal.Skeleton
import proofs.«122015_j3745211482437_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input buffer holds its window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rX1 : Rect S2048x64 := Rect.unit (s := S2048x64) ![0, 0] S2048x64.size inb_S2048x64_S2048x64_0_0
abbrev rB1 : Rect S1x64 := Rect.unit (s := S1x64) ![0, 0] S1x64.size inb_S1x64_S1x64_0_0

/-- What the body leaves in the output buffer: its one store, of the arithmetic of the two loads. -/
def out1_2 (x0 : Vec F S2048x64 .f32) (x1 : Vec F S1x64 .f32) : Vec F S2048x64 .bf16 :=
  View.canon [⟨rX1, k1_pay1 (View.ld x0 rX1) (View.ld x1 rB1)⟩]

/-- The store covers the buffer. -/
theorem cover1_2 (p0 : Vec F S2048x64 .bf16) (y : S2048x64.Idx) :
    ∃ pc ∈ ([⟨rX1, p0⟩] : List (View.Piece (Elt F) S2048x64 .bf16)), y ∈ pc.1.set :=
  View.cover_of_tiled [⟨rX1, p0⟩] S2048x64.size (by rfl) y

/-! ## The body's triple -/

set_option maxHeartbeats 1000000 in
/-- The body on whole buffers, the inputs' at contents x0, x1 and the output's at anything, runs to the continuation
    holding the inputs' as they were and the output's at `out1_2` of them. -/
theorem sound_kernel1 (c : Dev nD) (E : Set ℕ) (i : grid1.Coords) (arg1 : Memref sig .tc .vmem S2048x64 .f32) (harg1 : arg1.IsWhole) (arg2 : Memref sig .tc .vmem S1x64 .f32) (harg2 : arg2.IsWhole) (arg3 : Memref sig .tc .vmem S2048x64 .bf16) (harg3 : arg3.IsWhole)
    (x0 : Vec F S2048x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__biasrelu_kernel i arg1 harg1 arg2 harg2 arg3 harg3) K := by
  simp only [cc1__biasrelu_kernel_eq_skeleton]; unfold cc1__biasrelu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The stage's proof data -/

/-- The arrays as the stage finds them; after the body at point t each input buffer at its block and the output
    buffer at `out1_2` of the input blocks; the untouched rest as the invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiReg2.lean ====
/-
  The third tiled stage, point by point: at grid point t = 8·a + b the body finds rows 2048·a … of the narrowed
  features in its first input buffer and rows 2048·b … of the SAME array in its second, and leaves in its output
  buffer its one store — all inner products of a row of the first block with a row of the second — which the
  write-back copies to the block (a, b) of the result.  The one array behind the two input windows is read-only
  here; each window holds it at half the full share.  Stated for any reading of the floats.
-/
import proofs.«122015_j3745211482437_2_alg».proof.Proof.Gen.KernelIdeal.Launch
import proofs.«122015_j3745211482437_2_alg».proof.Proof.Gen.KernelIdeal.Skeleton
import proofs.«122015_j3745211482437_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input buffer holds its window's block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rX2 : Rect S2048x64 := Rect.unit (s := S2048x64) ![0, 0] S2048x64.size inb_S2048x64_S2048x64_0_0
abbrev rO2 : Rect S2048x2048 := Rect.unit (s := S2048x2048) ![0, 0] S2048x2048.size inb_S2048x2048_S2048x2048_0_0

/-- What the body leaves in the output buffer: its one store, of the arithmetic of the two loads. -/
def out2_2 (x0 : Vec F S2048x64 .bf16) (x1 : Vec F S2048x64 .bf16) : Vec F S2048x2048 .f32 :=
  View.canon [⟨rO2, k2_pay1 (View.ld x0 rX2) (View.ld x1 rX2)⟩]

/-- The store covers the buffer. -/
theorem cover2_2 (p0 : Vec F S2048x2048 .f32) (y : S2048x2048.Idx) :
    ∃ pc ∈ ([⟨rO2, p0⟩] : List (View.Piece (Elt F) S2048x2048 .f32)), y ∈ pc.1.set :=
  View.cover_of_tiled [⟨rO2, p0⟩] S2048x2048.size (by rfl) y

/-! ## The body's triple -/

set_option maxHeartbeats 1000000 in
/-- The body on whole buffers, the inputs' at contents x0, x1 and the output's at anything, runs to the continuation
    holding the inputs' as they were and the output's at `out2_2` of them. -/
theorem sound_kernel2 (c : Dev nD) (E : Set ℕ) (i : grid2.Coords) (arg2 : Memref sig .tc .vmem S2048x64 .bf16) (harg2 : arg2.IsWhole) (arg3 : Memref sig .tc .vmem S2048x64 .bf16) (harg3 : arg3.IsWhole) (arg4 : Memref sig .tc .vmem S2048x2048 .f32) (harg4 : arg4.IsWhole)
    (x0 : Vec F S2048x64 .bf16) (x1 : Vec F S2048x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__outer_kernel i arg2 harg2 arg3 harg3 arg4 harg4) K := by
  simp only [cc2__outer_kernel_eq_skeleton]; unfold cc2__outer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The stage's proof data -/

/-- The arrays as the stage finds them; after the body at point t each input buffer at its block and the output
    buffer at `out2_2` of the input blocks; the untouched rest as the invariant; nothing owed; the one array behind
    the two input windows held by each at one half of the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiVals.lean ====
/-
  The contents of every buffer at each boundary of the program's main sequence, on one core: the launch contents,
  then the operations before the first stage applied, then the first stage's result array replaced by what its
  write-backs leave (every other buffer untouched), then the operations between the stages applied, then the second
  and the third stage's result arrays replaced likewise.  No operation and no stage writes an argument array, so
  the four arguments read through the whole chain as launched.  Stated for any reading of the floats.
-/
import proofs.«122015_j3745211482437_2_alg».proof.Proof.KiReg0
import proofs.«122015_j3745211482437_2_alg».proof.Proof.KiReg1
import proofs.«122015_j3745211482437_2_alg».proof.Proof.KiReg2
import proofs.«122015_j3745211482437_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The boundaries -/

/-- Before the first stage: the launch contents with the operations before it applied. -/
abbrev W3 (c : Dev nD) : Valuation τ sig (Elt F) := V3 m c
/-- The same, read at the core's own references. -/
abbrev E3 : (c : Dev nD) → (b : Ref sig .tc) → Buf (Elt F) ((c : Thread nD τ).loc b) := fun c b => W3 m c b
/-- What the first stage's write-backs leave in its result array. -/
def o4 (c : Dev nD) : Buf (Elt F) ((c : Thread nD τ).loc main_v16) := (dat0 (E3 m) c).arrAt 3 cfg0.N
/-- After the first stage. -/
def W4 (c : Dev nD) : Valuation τ sig (Elt F) := Function.update (W3 m c) main_v16 (o4 m c)
/-- Before the second stage: the operations between the stages applied. -/
abbrev W5 (c : Dev nD) : Valuation τ sig (Elt F) := StableHlo.after hostOps1 (W4 m c)
abbrev E5 : (c : Dev nD) → (b : Ref sig .tc) → Buf (Elt F) ((c : Thread nD τ).loc b) := fun c b => W5 m c b
/-- What the second stage's write-backs leave in its result array. -/
def o6 (c : Dev nD) : Buf (Elt F) ((c : Thread nD τ).loc main_v30) := (dat1 (E5 m) c).arrAt 2 cfg1.N
/-- After the second stage (the third starts at once). -/
def W6 (c : Dev nD) : Valuation τ sig (Elt F) := Function.update (W5 m c) main_v30 (o6 m c)
abbrev E6 : (c : Dev nD) → (b : Ref sig .tc) → Buf (Elt F) ((c : Thread nD τ).loc b) := fun c b => W6 m c b
/-- What the third stage's write-backs leave in its result array. -/
def o7 (c : Dev nD) : Buf (Elt F) ((c : Thread nD τ).loc main_v31) := (dat2 (E6 m) c).arrAt 2 cfg2.N
/-- At the end. -/
def W7 (c : Dev nD) : Valuation τ sig (Elt F) := Function.update (W6 m c) main_v31 (o7 m c)
abbrev E7 : (c : Dev nD) → (b : Ref sig .tc) → Buf (Elt F) ((c : Thread nD τ).loc b) := fun c b => W7 m c b

/-! ## What each step leaves alone -/

theorem W4_of (c : Dev nD) (r : Ref sig .tc) (h : r ≠ main_v16) : W4 m c r = W3 m c r := by
  unfold W4; exact Function.update_of_ne (StableHlo.devRef_ne_of_ne h : (Proc.devRef .tc r : DevRef τ sig) ≠ Proc.devRef .tc main_v16) _ _
theorem W4_same (c : Dev nD) : W4 m c main_v16 = o4 m c := by unfold W4; exact Function.update_self ..
theorem W5_of (c : Dev nD) (r : Ref sig .tc) (h : r ∉ hostOps1_W) : W5 m c r = W4 m c r :=
  StableHlo.after_of_writes_sub hostOps1 _ hostOps1_writes h
theorem W6_of (c : Dev nD) (r : Ref sig .tc) (h : r ≠ main_v30) : W6 m c r = W5 m c r := by
  unfold W6; exact Function.update_of_ne (StableHlo.devRef_ne_of_ne h : (Proc.devRef .tc r : DevRef τ sig) ≠ Proc.devRef .tc main_v30) _ _
theorem W6_same (c : Dev nD) : W6 m c main_v30 = o6 m c := by unfold W6; exact Function.update_self ..
theorem W7_of (c : Dev nD) (r : Ref sig .tc) (h : r ≠ main_v31) : W7 m c r = W6 m c r := by
  unfold W7; exact Function.update_of_ne (StableHlo.devRef_ne_of_ne h : (Proc.devRef .tc r : DevRef τ sig) ≠ Proc.devRef .tc main_v31) _ _
theorem W7_same (c : Dev nD) : W7 m c main_v31 = o7 m c := by unfold W7; exact Function.update_self ..

/-! ## The arguments end as launched -/

theorem W3_arg (c : Dev nD) (r : Ref sig .tc) (h0 : r ∉ hostOps0_W) (h1 : r ∉ hostOps0_1_W) (h2 : r ∉ hostOps0_2_W) :
    W3 m c r = m ((c : Thread nD τ).loc r) :=
  (V3_of m c r h2).trans <| (V2_of m c r h1).trans <| (V1_of m c r h0).trans rfl

theorem W7_arg (c : Dev nD) (r : Ref sig .tc) (h0 : r ∉ hostOps0_W) (h1 : r ∉ hostOps0_1_W) (h2 : r ∉ hostOps0_2_W)
    (h4 : r ≠ main_v16) (h5 : r ∉ hostOps1_W) (h6 : r ≠ main_v30) (h7 : r ≠ main_v31) :
    W7 m c r = m ((c : Thread nD τ).loc r) :=
  (W7_of m c r h7).trans <| (W6_of m c r h6).trans <| (W5_of m c r h5).trans <| (W4_of m c r h4).trans <| W3_arg m c r h0 h1 h2

theorem W7_main_arg0 (c : Dev nD) : W7 m c main_arg0 = m ((c : Thread nD τ).loc main_arg0) :=
  W7_arg m c main_arg0 (by decide) (by decide) (by decide) (by decide) (by decide) (by decide) (by decide)
theorem W7_main_arg1 (c : Dev nD) : W7 m c main_arg1 = m ((c : Thread nD τ).loc main_arg1) :=
  W7_arg m c main_arg1 (by decide) (by decide) (by decide) (by decide) (by decide) (by decide) (by decide)
theorem W7_main_arg2 (c : Dev nD) : W7 m c main_arg2 = m ((c : Thread nD τ).loc main_arg2) :=
  W7_arg m c main_arg2 (by decide) (by decide) (by decide) (by decide) (by decide) (by decide) (by decide)
theorem W7_main_arg3 (c : Dev nD) : W7 m c main_arg3 = m ((c : Thread nD τ).loc main_arg3) :=
  W7_arg m c main_arg3 (by decide) (by decide) (by decide) (by decide) (by decide) (by decide) (by decide)

/-! ## Each stage's arrays at its exit: what the write-backs leave, every other buffer as entered -/

theorem hF0 (c : Dev nD) (w : Fin cfg0.W) : (dat0 (E3 m) c).arrAt w cfg0.N = W4 m c (Pipeline.arrRef spec0 w) := by
  match w with
  | ⟨0, _⟩ => exact (((dat0 (E3 m) c).arrAt_in 0 rfl _).trans (A_eq0 (E3 m) c 0)).trans (W4_of m c main_arg0 (by decide)).symm
  | ⟨1, _⟩ => exact (((dat0 (E3 m) c).arrAt_in 1 rfl _).trans (A_eq0 (E3 m) c 1)).trans (W4_of m c main_arg2 (by decide)).symm
  | ⟨2, _⟩ => exact (((dat0 (E3 m) c).arrAt_in 2 rfl _).trans (A_eq0 (E3 m) c 2)).trans (W4_of m c main_v15 (by decide)).symm
  | ⟨3, _⟩ => exact (W4_same m c).symm
theorem hrest0 (c : Dev nD) : ∀ b, b ∉ Finset.univ.image (Pipeline.arrRef spec0) → W4 m c b = W3 m c b :=
  fun b hb => W4_of m c b fun e => hb (Finset.mem_image.mpr ⟨3, Finset.mem_univ _, by rw [e]⟩)

theorem hF1 (c : Dev nD) (w : Fin cfg1.W) : (dat1 (E5 m) c).arrAt w cfg1.N = W6 m c (Pipeline.arrRef spec1 w) := by
  match w with
  | ⟨0, _⟩ => exact (((dat1 (E5 m) c).arrAt_in 0 rfl _).trans (A_eq1 (E5 m) c 0)).trans (W6_of m c main_v28 (by decide)).symm
  | ⟨1, _⟩ => exact (((dat1 (E5 m) c).arrAt_in 1 rfl _).trans (A_eq1 (E5 m) c 1)).trans (W6_of m c main_v29 (by decide)).symm
  | ⟨2, _⟩ => exact (W6_same m c).symm

theorem hrest1 (c : Dev nD) : ∀ b, b ∉ Finset.univ.image (Pipeline.arrRef spec1) → W6 m c b = W5 m c b :=
  fun b hb => W6_of m c b fun e => hb (Finset.mem_image.mpr ⟨2, Finset.mem_univ _, by rw [e]⟩)

theorem hF2 (c : Dev nD) (w : Fin cfg2.W) : (dat2 (E6 m) c).arrAt w cfg2.N = W7 m c (Pipeline.arrRef spec2 w) := by
  match w with
  | ⟨0, _⟩ => exact (((dat2 (E6 m) c).arrAt_in 0 rfl _).trans (A_eq2 (E6 m) c 0)).trans (W7_of m c main_v30 (by decide)).symm
  | ⟨1, _⟩ => exact (((dat2 (E6 m) c).arrAt_in 1 rfl _).trans (A_eq2 (E6 m) c 1)).trans (W7_of m c main_v30 (by decide)).symm
  | ⟨2, _⟩ => exact (W7_same m c).symm

theorem hrest2 (c : Dev nD) : ∀ b, b ∉ Finset.univ.image (Pipeline.arrRef spec2) → W7 m c b = W6 m c b :=
  fun b hb => W7_of m c b fun e => hb (Finset.mem_image.mpr ⟨2, Finset.mem_univ _, by rw [e]⟩)

end Cert.KernelIdeal.Hand

end
-- ==== Proof.KiShare2.lean ====
/-
  The third stage reads ONE array through two windows.  Whole and at the full share, the array's buffer is the two
  windows' holdings of it — each the whole buffer at one half of the full share, at the same contents — and back;
  the result array is held whole at the full share throughout.
-/
import proofs.«122015_j3745211482437_2_alg».proof.Proof.KiReg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffers behind the third stage's arrays, whole at the full share at contents V, ARE the stage's arrays at
    contents that read V at each window's array: the shared array's full share is the two halves. -/
theorem arrays2_eq (V0 : (c : Dev nD) → (b : Ref sig .tc) → Buf (Elt F) ((c : Thread nD τ).loc b)) (c : Dev nD)
    (V : (b : Ref sig .tc) → Buf (Elt F) ((c : Thread nD τ).loc b))
    (G : (w : Fin cfg2.W) → Buf (Elt F) ((cfg2.win w).arr.view.loc (c.tc : Thread nD τ)))
    (hG : ∀ w, G w = V (Pipeline.arrRef spec2 w)) :
    (Pipeline.arrBufs (Ix := Unit) (Name := ℕ) (U := UR sig nD τ) (Lvl := ℕ) spec2 c V : sProp 𝕄) ⊣⊢ (dat2 V0 c).arrays G := by
  unfold Pipeline.arrBufs Dat.arrays
  rw [bigSep_eq_bigSepL_of_eq [main_v30, main_v31] (by decide) (by decide), bigSep_W2]
  rw [(arr_whole2 0).set_eq_univ, (arr_whole2 2).set_eq_univ,
    show (dat2 V0 c).share 0 = fullShare.left from rfl, show (dat2 V0 c).share 1 = fullShare.right from rfl,
    show (dat2 V0 c).share 2 = fullShare from rfl, hG 0, hG 1, hG 2]
  show iprop(((c : Thread nD τ).loc main_v30 ↦{fullShare} V main_v30) ∗ ((c : Thread nD τ).loc main_v31 ↦{fullShare} V main_v31))
    ⊣⊢ (iprop(((c : Thread nD τ).loc main_v30 ↦{fullShare.left} V main_v30) ∗ ((c : Thread nD τ).loc main_v30 ↦{fullShare.right} V main_v30)
      ∗ ((c : Thread nD τ).loc main_v31 ↦{fullShare} V main_v31)) : sProp 𝕄)
  have hs : (((c : Thread nD τ).loc main_v30 ↦{fullShare} V main_v30) : sProp 𝕄)
      ⊢ iprop(((c : Thread nD τ).loc main_v30 ↦{fullShare.left} V main_v30) ∗ ((c : Thread nD τ).loc main_v30 ↦{fullShare.right} V main_v30)) :=
    (pointsTo_share (PosShare.mem_left_op_right fullShare)).1
  have hj : iprop(((c : Thread nD τ).loc main_v30 ↦{fullShare.left} V main_v30) ∗ ((c : Thread nD τ).loc main_v30 ↦{fullShare.right} V main_v30))
      ⊢ (((c : Thread nD τ).loc main_v30 ↦{fullShare} V main_v30) : sProp 𝕄) :=
    (pointsTo_share (PosShare.mem_left_op_right fullShare)).2
  constructor
  · iintro ⟨H0, H1⟩
    ihave H := hs $$ H0
    icases H with ⟨Hl, Hr⟩
    isplitl [Hl]; · iexact Hl
    isplitl [Hr]; · iexact Hr
    iexact H1
  · iintro ⟨Hl, Hr, H1⟩
    isplitl [Hl Hr]
    · iapply hj
      isplitl [Hl] <;> iassumption
    iexact H1

end Cert.KernelIdeal.Hand

end
-- ==== Proof.KiRun.lean ====
/-
  The program's main sequence as seven segments — three stretches of operations, the first stage, a stretch of
  operations, the second stage, the third stage — run from the launch to the return.  Between two segments a core
  holds every unscoped buffer whole at the boundary's contents, its generator register at some state, and owes
  nothing.  Every weakly fair execution therefore terminates, and every final memory holds each unscoped buffer at
  the last boundary's contents: in particular the four arguments as launched, and the result array at what the
  third stage's write-backs leave.  Stated for any reading of the floats.
-/
import proofs.«122015_j3745211482437_2_alg».proof.Proof.KiVals
import proofs.«122015_j3745211482437_2_alg».proof.Proof.KiShare2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every stage's proof data, each at its entry contents. -/
def pd : (p : Fin 3) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
  | ⟨2, _⟩ => fun c => dat2 (E6 m) c
abbrev 𝒱n : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state, nothing owed. -/
abbrev Rst (c : Dev nD) : sProp 𝕄 := iprop((∃ r, prngReg c r) ∗ ∃ W, owes (c : Thread nD τ) (0 : CellTallies nD τ sig Unit) W)
/-- A stretch of operations as a segment, from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- The last thread state without the `owes`. -/
abbrev Tn (c : Dev nD) : sProp 𝕄 := iprop(StableHlo.held (c : Thread nD τ) (Pipeline.ucRefs τ sig) (W7 m c) ∗ ∃ r, prngReg c r)

/-! ## The stages as segments -/

set_option backward.isDefEq.respectTransparency.types false in
/-- Stage 0 as a segment: entered with every unscoped buffer at the contents before it, left with them at the
    contents after it.  Its arrays are taken out of the unscoped buffers and put back at what the write-backs
    leave; the generator register goes into the invariant and comes out; nothing is owed; no semaphore of its own. -/
def rg0 : Pipeline.RegionSeg (pcfgs (F := F)) adm (pd m) () defs₀ 𝒱n Lz lvz 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ Lz lvz 0 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pd m) launch0.win launch0.arr_whole c
      ((pd m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m) ((pd m 0 c).share_full fun _ => rfl)
      (E3 m c) (fun b => W4 m c b) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 as a segment: entered with every unscoped buffer at the contents before it, left with them at the
    contents after it.  Its arrays are taken out of the unscoped buffers and put back at what the write-backs
    leave; the generator register goes into the invariant and comes out; nothing is owed; no semaphore of its own. -/
def rg1 : Pipeline.RegionSeg (pcfgs (F := F)) adm (pd m) () defs₀ 𝒱n Lz lvz 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ Lz lvz 1 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pd m) launch1.win launch1.arr_whole c
      ((pd m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m) ((pd m 1 c).share_full fun _ => rfl)
      (E5 m c) (fun b => W6 m c b) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 2 as a segment, the last: entered with every unscoped buffer at the contents before it, left with them at
    the final contents.  The one array behind its two input windows is split into its two halves at entry and joined
    again at exit (it is only read in between); otherwise as the other stages. -/
def rg2 : Pipeline.RegionSeg (pcfgs (F := F)) adm (pd m) () defs₀ 𝒱n Lz lvz 2 where
  win := winFacts₀2
  block_pos := block_pos2
  stage_whole := stage_whole2
  K := PEmpty
  osem k := k.elim
  ho := Pipeline.OwnSemFacts.none _
  hbody c := (body_obligation2 (E6 m) c).loose
  hwaits := Pipeline.hwaits_of_owed_zero _ _ _ _ Lz lvz 2 fun _ _ => rfl
  pre c := iprop(StableHlo.held (c : Thread nD τ) (Pipeline.ucRefs τ sig) (W6 m c) ∗ Rst c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E6 m c)
  hentry c := by
    rw [Pipeline.ownSems0_none]
    have hub := Pipeline.unscopedBufs_split₀ (Ix := Unit) (Name := ℕ) (U := UR sig nD τ) (Lvl := ℕ) (Val := Elt F) cfgs 2 winFacts₀2.arr_unscoped c (E6 m c)
    rw [Pipeline.unscopedBufs_held] at hub
    have hsplit := (arrays2_eq (E6 m) c (E6 m c) ((pd m 2 c).arrAt · 0) (fun w => (A_eq2 (E6 m) c w))).1
    rw [hub]
    iintro ⟨⟨⟨Hab, Hrest⟩, Hp, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m 2 c).Φ (Fin.last _) = Pipeline.ΦA spec2 c from rfl]; unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) (Val := Elt F) cfgs 2 winFacts₀2.arr_unscoped c (E7 m c)
    rw [Pipeline.unscopedBufs_held] at hub
    have hjoin := (arrays2_eq (E6 m) c (E7 m c) ((pd m 2 c).arrAt · cfg2.N) (hF2 m c)).2
    have hrest : (Pipeline.unscopedRest (Ix := Unit) (Name := ℕ) (U := UR sig nD τ) (Lvl := ℕ) spec2 c (E6 m c) : sProp 𝕄)
        = Pipeline.unscopedRest spec2 c (E7 m c) := by
      unfold Pipeline.unscopedRest
      exact bigSep_congr fun b hb => by rw [show E7 m c b = E6 m c b from hrest2 m c b (Finset.mem_sdiff.mp hb).2]
    iintro ⟨Ha, HO, HY, Hrest⟩
    imodintro
    isplitl [Ha Hrest HY]
    · isplitl [Ha Hrest]
      · rw [hub]
        isplitl [Ha]
        · iapply hjoin; iexact Ha
        rw [show (Pipeline.unscopedRest (Ix := Unit) (Name := ℕ) (U := UR sig nD τ) (Lvl := ℕ) (cfgs 2).spec c (E7 m c) : sProp 𝕄)
          = Pipeline.unscopedRest spec2 c (E6 m c) from hrest.symm]
        iexact Hrest
      iexact HY
    unfold Pipeline.Dat.owesAt Pipeline.owesWithin
    icases HO with ⟨%W, -, HO⟩; iexists W; iexact HO

/-! ## The main sequence, and the launch -/

abbrev sgs : List (Pipeline.Seg (pcfgs (F := F)) adm (pd m) () defs₀ 𝒱n Lz lvz) :=
  [ .host (hostSeg hostOps0 hostOps0_sub hostOps0_fresh (fun c => V0 m c)),
    .host (hostSeg hostOps0_1 hostOps0_1_sub hostOps0_1_fresh (fun c => V1 m c)),
    .host (hostSeg hostOps0_2 hostOps0_2_sub hostOps0_2_fresh (fun c => V2 m c)),
    .region (rg0 m),
    .host (hostSeg hostOps1 hostOps1_sub hostOps1_fresh (W4 m)),
    .region (rg1 m),
    .region (rg2 m) ]

set_option backward.isDefEq.respectTransparency.types false in
/-- THE RUN: every weakly fair execution of the main sequence terminates, nothing faulting, and every final memory
    holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pd m) () cellOf_inj emb₁ defs₀ 𝒱n Lz lvz m ρ main (sgs m)
    (fun c Q => by
      rewrite [main_chain c, Pipeline.Seg.run_eq_chain,
        show (sgs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()) ] from rfl]
      exact .rfl)
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c)) (Tₙ := Tn m)
    (hch := ⟨fun _ => .rfl, fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

/-- The run with the result array named: it ends at what the third stage's write-backs leave. -/
theorem run_value : θ_run defs (onTc (τ := τ) (main (F := F))) ⟨m, fun _ => 0, ρ⟩ (fun r => ∀ c : Dev nD,
      r.2.mem ((c.tc : Thread nD τ).loc main_v31) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v31 (by decide))).trans (W7_same m c),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.KernelIdeal.Hand

end
-- ==== Proof.Prelude.lean ====
/-
  What both programs compute from the edge list before any feature is touched, as whole-array terms.

  The edge list is a 2 × 524288 array of 32-bit words.  Row 0 followed by the numbers 0 … 16383 is the vector of
  message sources, row 1 followed by the same numbers the vector of message targets (one self-loop per node).
  The in-degree of node i is the number of messages whose target word, read as a signed integer, is i: a sum of
  ones accumulated into a zero vector.  The node's factor is the inverse square root of its in-degree where that
  is positive and 0 elsewhere.

  A row gather reads its index word signed, first moved up by 16384 when negative (`wrap`), then clamped into
  0 … 16383 (`clamp`); an accumulating scatter uses the word as it is and drops it when it names no row.
-/
import proofs.«122015_j3745211482437_2_alg».proof.Proof.Gen.KernelIdeal
import Idealize.ShloMosaic.PureOps.Ideal
import Idealize.ShloMosaic.Lib.ValueIdx

noncomputable section

namespace Cert.Prelude

open Idealize.ShloMosaic Idealize.ShloMosaic.ValueIdx Cert.KernelIdeal Cert.KernelIdeal.Facts₀ Cert.KernelIdeal.Facts

/-- A negative index word counts from the end of the 16384 rows. -/
def wrap (v : BitVec 32) : BitVec 32 :=
  Scalar.select (IntOp.cmpi .slt v 0#32) (v + 16384#32) v

/-- An index word read signed and clamped to a row number. -/
def clamp (v : BitVec 32) : Fin 16384 := ⟨min v.toInt.toNat (16384 - 1), by omega⟩

/-- The message sources: row 0 of the edge list, then every node's own number. -/
def srcT (ei : IVec S2x524288 32) : IVec S540672 32 :=
  concatenate S540672 0
    [⟨S524288, shapeCast S524288 (extractStridedSlice S1x524288 ![0, 0] ei slices_S2x524288_S1x524288_0_0) shapeCasts_S1x524288_S524288⟩,
     ⟨S16384, iotaInDim S16384 32 0⟩] concatenates_S524288_S16384_S540672_d0

/-- The message targets: row 1 of the edge list, then every node's own number. -/
def dstT (ei : IVec S2x524288 32) : IVec S540672 32 :=
  concatenate S540672 0
    [⟨S524288, shapeCast S524288 (extractStridedSlice S1x524288 ![1, 0] ei slices_S2x524288_S1x524288_1_0) shapeCasts_S1x524288_S524288⟩,
     ⟨S16384, iotaInDim S16384 32 0⟩] concatenates_S524288_S16384_S540672_d0

/-- The in-degrees: ones summed into a zero vector at the target words. -/
def degT (ei : IVec S2x524288 32) : FVec Ideal S16384 .f32 :=
  Host.scatterAdd (F := Ideal) scatter_S16384_S540672x1_S540672_n_0_0_1
    (broadcastInDim S16384 ![] bcast_S_S16384 (constant (F := Ideal) S_ .f32 0x00000000#32))
    (broadcastInDim S540672x1 ![0] bcast_S540672_S540672x1_0 (dstT ei))
    (broadcastInDim S540672 ![] bcast_S_S540672 (constant (F := Ideal) S_ .f32 0x3F800000#32))

/-- The nodes' factors: the inverse square root of the in-degree where it is positive, 0 elsewhere. -/
def dinvT (ei : IVec S2x524288 32) : FVec Ideal S16384 .f32 :=
  select (cmpf (F := Ideal) .ogt (degT ei) (broadcastInDim S16384 ![] bcast_S_S16384 (constant (F := Ideal) S_ .f32 0x00000000#32)))
    (Host.rsqrt (F := Ideal) (degT ei))
    (broadcastInDim S16384 ![] bcast_S_S16384 (constant (F := Ideal) S_ .f32 0x00000000#32))

/-- The source words as a gather reads them: wrapped, as a column. -/
def srcColT (ei : IVec S2x524288 32) : IVec S540672x1 32 :=
  broadcastInDim S540672x1 ![0] bcast_S540672_S540672x1_0
    (select (cmpi .slt (srcT ei) (broadcastInDim S540672 ![] bcast_S_S540672 (constantI S_ 32 0#32)))
      (addi (srcT ei) (broadcastInDim S540672 ![] bcast_S_S540672 (constantI S_ 32 16384#32))) (srcT ei))

/-- The target words as a scatter reads them: as they are, as a column. -/
def dstColT (ei : IVec S2x524288 32) : IVec S540672x1 32 :=
  broadcastInDim S540672x1 ![0] bcast_S540672_S540672x1_0 (dstT ei)

/-- The factors as a column. -/
def dinvColT (ei : IVec S2x524288 32) : FVec Ideal S16384x1 .f32 :=
  shapeCast S16384x1 (dinvT ei) shapeCasts_S16384_S16384x1

/-- The kernel's aggregate of the pre-scaled rows `hs`: the rows gathered at the sources, summed into a zero
    matrix at the targets, every row of the sum scaled by the target's factor. -/
def haggT (hs : FVec Ideal S16384x64 .f32) (ei : IVec S2x524288 32) : FVec Ideal S16384x64 .f32 :=
  mulf (broadcastInDim S16384x64 ![0, 1] bcast_S16384x1_S16384x64_0_1 (dinvColT ei))
    (Host.scatterAdd (F := Ideal) scatter_S16384x64_S540672x1_S540672x64_1_0_0_1
      (broadcastInDim S16384x64 ![] bcast_S_S16384x64 (constant (F := Ideal) S_ .f32 0x00000000#32))
      (dstColT ei)
      (Host.gather gather_S16384x64_S540672x1_S540672x64_1_0_n_n_0_1_164 hs (srcColT ei)))

/-- The bias as a one-row matrix. -/
def biasRowT (b : FVec Ideal S64 .f32) : FVec Ideal S1x64 .f32 := shapeCast S1x64 b shapeCasts_S64_S1x64

end Cert.Prelude

end
-- ==== Proof.RefStages.lean ====
/-
  The reference's edge-list stages are the edge-list terms of the prelude.

  Operation for operation, the reference builds the vector of message sources, the vector of message targets, the
  in-degrees and the nodes' factors exactly as the prelude does, so each of these stages IS the prelude's term
  (the two programs' shape names denote the same literal shapes).  An index column, read at row e, is the
  underlying vector's entry e; for the gathers that entry is the wrapped word, for the scatter the word as it is.
-/
import proofs.«122015_j3745211482437_2_alg».proof.Proof.RefRead
import proofs.«122015_j3745211482437_2_alg».proof.Proof.Prelude

noncomputable section
open scoped BigOperators
namespace Cert.ReferenceIdeal.RefStages
open Idealize.ShloMosaic Idealize.ShloMosaic.ValueIdx Cert.ReferenceIdeal Cert.ReferenceIdeal.ReadP

/-- The message sources. -/
theorem v3_eq (ei : IVec Cert.KernelIdeal.S2x524288 32) : val_main_v3 (F := Ideal) ei = Cert.Prelude.srcT ei := rfl
/-- The message targets. -/
theorem v6_eq (ei : IVec Cert.KernelIdeal.S2x524288 32) : val_main_v6 (F := Ideal) ei = Cert.Prelude.dstT ei := rfl
/-- The in-degrees. -/
theorem v10_eq (ei : IVec Cert.KernelIdeal.S2x524288 32) : val_main_v10 (F := Ideal) ei = Cert.Prelude.degT ei := rfl
/-- The nodes' factors. -/
theorem v14_eq (ei : IVec Cert.KernelIdeal.S2x524288 32) : val_main_v14 (F := Ideal) ei = Cert.Prelude.dinvT ei := rfl
/-- The wrapped source column (as the gather of factors reads it). -/
theorem v20_eq (ei : IVec Cert.KernelIdeal.S2x524288 32) : val_main_v20 (F := Ideal) ei = Cert.Prelude.srcColT ei := rfl
/-- The wrapped source column (as the gather of rows reads it). -/
theorem v36_eq (ei : IVec Cert.KernelIdeal.S2x524288 32) : val_main_v36 (F := Ideal) ei = Cert.Prelude.srcColT ei := rfl
/-- The target column the row scatter reads. -/
theorem v42_eq (ei : IVec Cert.KernelIdeal.S2x524288 32) : val_main_v42 (F := Ideal) ei = Cert.Prelude.dstColT ei := rfl

/-- Row e of a column sits at entry e of the vector it was made from. -/
theorem idx_col (e : Fin 540672) : idx_main_v42 (ix2 e (0 : Fin 1)) = ix1 e :=
  funext fun a => match a with | ⟨0, _⟩ => rfl

/-- Entry e of the wrapped sources. -/
theorem v19_at (ei : IVec Cert.KernelIdeal.S2x524288 32) (e : Fin 540672) :
    val_main_v19 (F := Ideal) ei (ix1 e) = Cert.Prelude.wrap (Cert.Prelude.srcT ei (ix1 e)) := by
  rw [val_main_v19_apply, val_main_v16_apply, val_main_v18_apply, val_main_v15_apply, val_main_v17_apply,
    val_main_c_apply, val_main_c_3_apply, v3_eq]
  rfl

/-- Entry e of the wrapped targets. -/
theorem v26_at (ei : IVec Cert.KernelIdeal.S2x524288 32) (e : Fin 540672) :
    val_main_v26 (F := Ideal) ei (ix1 e) = Cert.Prelude.wrap (Cert.Prelude.dstT ei (ix1 e)) := by
  rw [val_main_v26_apply, val_main_v23_apply, val_main_v25_apply, val_main_v22_apply, val_main_v24_apply,
    val_main_c_4_apply, val_main_c_5_apply, v6_eq]
  rfl

/-- Row e of the wrapped source column. -/
theorem v20_at (ei : IVec Cert.KernelIdeal.S2x524288 32) (e : Fin 540672) :
    val_main_v20 (F := Ideal) ei (ix2 e (0 : Fin 1)) = Cert.Prelude.wrap (Cert.Prelude.srcT ei (ix1 e)) := by
  rw [val_main_v20_apply]
  exact (congrArg (val_main_v19 (F := Ideal) ei) (idx_col e)).trans (v19_at ei e)

/-- Row e of the wrapped target column. -/
theorem v27_at (ei : IVec Cert.KernelIdeal.S2x524288 32) (e : Fin 540672) :
    val_main_v27 (F := Ideal) ei (ix2 e (0 : Fin 1)) = Cert.Prelude.wrap (Cert.Prelude.dstT ei (ix1 e)) := by
  rw [val_main_v27_apply]
  exact (congrArg (val_main_v26 (F := Ideal) ei) (idx_col e)).trans (v26_at ei e)

/-- Row e of the second wrapped source column. -/
theorem v36_at (ei : IVec Cert.KernelIdeal.S2x524288 32) (e : Fin 540672) :
    val_main_v36 (F := Ideal) ei (ix2 e (0 : Fin 1)) = Cert.Prelude.wrap (Cert.Prelude.srcT ei (ix1 e)) :=
  (congrFun (v36_eq ei) _).trans ((congrFun (v20_eq ei) _).symm.trans (v20_at ei e))

/-- Row e of the target column: the target word as it is. -/
theorem v42_at (ei : IVec Cert.KernelIdeal.S2x524288 32) (e : Fin 540672) :
    val_main_v42 (F := Ideal) ei (ix2 e (0 : Fin 1)) = Cert.Prelude.dstT ei (ix1 e) := by
  rw [val_main_v42_apply]
  exact congrArg (val_main_v6 (F := Ideal) ei) (idx_col e)

end Cert.ReferenceIdeal.RefStages
end
-- ==== Proof.RefWords.lean ====
/-
  Index words.  A 32-bit word whose signed value is a row number i of the 16384 rows is not negative, so the
  wrap-around of negative indices leaves it alone, and clamping it into 0 … 16383 gives i back.
-/
import proofs.«122015_j3745211482437_2_alg».proof.Proof.Prelude
import Idealize.ShloMosaic.Lib.Affine

noncomputable section

namespace Cert.RefWords

open Idealize.ShloMosaic Cert.Prelude

/-- A word that is not negative, read signed, is not wrapped. -/
theorem wrap_of_nonneg (v : BitVec 32) (h : 0 ≤ v.toInt) : wrap v = v := by
  unfold wrap
  have hlt : ¬ (IntOp.cmpi .slt v 0#32 = 1#1) := by
    intro hc
    have h2 := IntOp.cmpi_slt.mp hc
    rw [BitVec.toInt_zero] at h2
    omega
  exact if_neg hlt

/-- A word whose signed value is the row number `i` names the row `i` once wrapped and clamped. -/
theorem clamp_wrap_of_toInt_eq (v : BitVec 32) (i : Fin 16384) (h : v.toInt = ((i : ℕ) : ℤ)) :
    clamp (wrap v) = i := by
  rw [wrap_of_nonneg v (by omega)]
  unfold clamp
  apply Fin.ext
  show min v.toInt.toNat (16384 - 1) = i.val
  have hi := i.isLt
  rw [h]
  omega

end Cert.RefWords

end
-- ==== Proof.LibRowGather.lean ====
/-
  A row gather read at an entry.  For a matrix `x : [N, D]` and a column of start indices `idx : [E, 1]`,
  `x[idx]` (offset axis 1, collapsed axis 0, start index map [0], slices of one whole row) has at entry (e, j)
  the matrix entry (r, j), where the row r is the e-th start index read as a signed integer and clamped into
  [0, N - 1].  The column j is untouched, so a gather of rows commutes with anything that acts column by column.
-/
import Idealize.ShloMosaic.Lib.ValueIdx

noncomputable section

namespace LibRowGather

open Idealize.ShloMosaic Idealize.ShloMosaic.ValueIdx

/-- The dimension numbers of a gather of whole rows: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: the word read signed, clamped into `[0, N - 1]`. -/
def clampRow (N : Nat) (hN : 0 < N) {w : Nat} (v : BitVec w) : Fin N := ⟨min v.toInt.toNat (N - 1), by omega⟩

/-- THE ROW GATHER AT `(e, j)`: the operand's entry at the clamped row `idx[e, 0]` and the same column `j`. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N D E wf) x idx (ix2 e j)
      = x (ix2 (clampRow N hN (idx (ix2 e (0 : Fin 1)))) j) := by
  unfold Host.gather
  refine congrArg x (funext fun a => Fin.ext ?_)
  match a with
  | ⟨0, _⟩ =>
    show (rowDims N D E wf).start (ix2 e j) idx 0 + (rowDims N D E wf).batchCoord (ix2 e j) 0
      + (rowDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e j) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e j) idx 1 + (rowDims N D E wf).batchCoord (ix2 e j) 1
      + (rowDims N D E wf).offCoord (ix2 e j) 1 = j.val
    rw [GatherDims.batchCoord_eq_zero _ _ _ List.not_mem_nil]
    unfold GatherDims.start
    rw [dif_neg (show ¬ (1 : Fin 2) ∈ (rowDims N D E wf).startIndexMap by
      show ¬ (1 : Fin 2) ∈ ([0] : List (Fin 2)); decide)]
    simp only [Nat.add_zero, Nat.zero_add]
    unfold GatherDims.offCoord
    rw [dif_pos ((GatherDims.mem_sKept _ _).mpr ⟨by show ¬ (1 : Fin 2) ∈ ([0] : List (Fin 2)); decide, List.not_mem_nil⟩)]
    rfl

end LibRowGather

end
-- ==== Proof.LibSegmentIdx.lean ====
/-
  Gathers and accumulating scatters along the leading axis, read at an index.

  Indexing a table by an integer column, `x[idx]`, and summing update rows into the rows an integer column names
  (a segment sum) are the two halves of message passing on a graph. With the index column of shape [E, 1]:

  * a gather from a vector x : [N], or from a one-column matrix x : [N, 1], reads at position e the entry of x at
    the e-th index, read as a signed integer and clamped into [0, N − 1];
  * an accumulating scatter into a vector [N], or into a one-column matrix [N, 1], lands update e on row i exactly
    when the e-th index, read as a signed integer and NOT clamped, equals i; an index outside [0, N) lands nowhere;
  * hence, at exact arithmetic, row i of the scattered sum is the operand's row i plus the sum over all e of
    "update e if the e-th index equals i, else 0".
-/
import Idealize.ShloMosaic.Lib.ValueIdx
import Idealize.ShloMosaic.PureOps.Ideal.Laws

noncomputable section

open scoped BigOperators

namespace LibSegmentIdx

open Idealize.ShloMosaic Idealize.ShloMosaic.ValueIdx

/-! ## Gathers -/

section Gather
variable {α : Type}

/-- The dimension numbers of `x[idx]` for a vector `x : [N]` and an index column `idx : [E, 1]`, result `[E]`. -/
abbrev takeVecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of `x[idx]` is `x` at the `e`-th index, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (takeVecDims N E wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (takeVecDims N E wf).start j idx 0 + (takeVecDims N E wf).batchCoord j 0 + (takeVecDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeVecDims N E wf).startIndexMap from List.mem_singleton.mpr rfl)]
  have hsi : (takeVecDims N E wf).siIdx j ⟨List.idxOf (0 : Fin 1) (takeVecDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The dimension numbers of `x[idx]` for a one-column matrix `x : [N, 1]` and `idx : [E, 1]`, result `[E, 1]`. -/
abbrev takeRowDims (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Row `e` of `x[idx]` is the row of `x` at the `e`-th index, read signed and clamped into `[0, N − 1]`. -/
theorem gather_row_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (j : (⟨2, ![E, 1]⟩ : Shape).Idx) :
    Host.gather (takeRowDims N E wf) x idx j
      = x (ix2 ⟨min (idx (ix2 (j 0) (0 : Fin 1))).toInt.toNat (N - 1), by omega⟩ (0 : Fin 1)) := by
  unfold Host.gather
  congr 1
  funext a
  refine Fin.ext ?_
  match a with
  | ⟨0, _⟩ =>
    show (takeRowDims N E wf).start j idx 0 + (takeRowDims N E wf).batchCoord j 0 + (takeRowDims N E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowDims N E wf).startIndexMap from List.mem_singleton.mpr rfl)]
    have hsi : (takeRowDims N E wf).siIdx j ⟨List.idxOf (0 : Fin 2) (takeRowDims N E wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    have h1 := (takeRowDims N E wf).lt j idx 1
    have : (⟨2, ![N, 1]⟩ : Shape).size 1 = 1 := rfl
    show (takeRowDims N E wf).start j idx 1 + (takeRowDims N E wf).batchCoord j 1 + (takeRowDims N E wf).offCoord j 1 = 0
    omega

end Gather

/-! ## Accumulating scatters -/

section Scatter

/-- A rank-1 index set is its one coordinate's range. -/
def idxEquiv1 {n : Nat} : (⟨1, ![n]⟩ : Shape).Idx ≃ Fin n where
  toFun i := i 0
  invFun e := ix1 e
  left_inv i := (eq_ix1 i).symm
  right_inv _ := rfl

/-- A column's index set `[n, 1]` is its row coordinate's range. -/
def idxEquivCol {n : Nat} : (⟨2, ![n, 1]⟩ : Shape).Idx ≃ Fin n where
  toFun i := i 0
  invFun e := ix2 e (0 : Fin 1)
  left_inv i := funext fun a => match a with
    | ⟨0, _⟩ => rfl
    | ⟨1, _⟩ => Fin.ext (by have := idx2_lt1 i; show (0 : ℕ) = (i 1).val; omega)
  right_inv _ := rfl

/-- The dimension numbers of a segment sum into a vector `[N]`: updates `[E]`, index column `[E, 1]`. -/
abbrev addVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `i` exactly when the `e`-th index, read signed, is `i`. -/
theorem resultIdx?_vec_iff {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (addVecDims N E wf).resultIdx? j idx = some i ↔ (idx (ix2 (j 0) (0 : Fin 1))).toInt = ((i 0).val : ℤ) := by
  have hi : (i 0).val < N := (i 0).isLt
  have hstart : (addVecDims N E wf).start j idx 0 = (idx (ix2 (j 0) (0 : Fin 1))).toInt := by
    unfold ScatterDims.start
    rw [dif_pos (show (0 : Fin 1) ∈ (addVecDims N E wf).scatterDimsToOperandDims from List.mem_singleton.mpr rfl)]
    have hsi : (addVecDims N E wf).siIdx j ⟨List.idxOf (0 : Fin 1) (addVecDims N E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin : (addVecDims N E wf).window j 0 = 0 := by
    unfold ScatterDims.window
    rw [dif_neg (by simp [ScatterDims.sKept, Shape.kept])]
  unfold ScatterDims.resultIdx?
  split
  · rename_i h
    rw [Option.some_inj]
    constructor
    · intro he
      have h0 := congrArg (fun f => (f 0).val) he
      have hh := h 0
      simp only [hstart, hwin] at h0 hh
      omega
    · intro he
      funext a
      obtain rfl : a = 0 := Subsingleton.elim _ _
      refine Fin.ext ?_
      show ((addVecDims N E wf).start j idx 0 + ((addVecDims N E wf).window j 0 : ℕ)).toNat = (i 0).val
      rw [hstart, hwin]
      omega
  · rename_i h
    constructor
    · intro he; exact absurd he (by simp)
    · intro he
      exfalso
      apply h
      intro a
      obtain rfl : a = 0 := Subsingleton.elim _ _
      rw [hstart, hwin]
      have : (⟨1, ![N]⟩ : Shape).size 0 = N := rfl
      omega

/-- At exact arithmetic, entry `i` of the segment sum into a vector is the operand's entry plus the sum over all
    `e` of "update `e` if the `e`-th index is `i`, else 0". -/
theorem scatterAdd_vec_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (i : (⟨1, ![N]⟩ : Shape).Idx) :
    Host.scatterAdd (addVecDims N E wf) x idx upd i
      = x i + ∑ e : Fin E, if (idx (ix2 e (0 : Fin 1))).toInt = ((i 0).val : ℤ) then upd (ix1 e) else 0 := by
  show Ideal.hostScatterAdd (addVecDims N E wf) x idx upd i = _
  unfold Ideal.hostScatterAdd
  congr 1
  rw [Finset.sum_filter]
  refine Fintype.sum_equiv idxEquiv1 _ _ (fun j => ?_)
  obtain ⟨e, rfl⟩ : ∃ e, j = ix1 e := ⟨j 0, eq_ix1 j⟩
  exact if_congr (resultIdx?_vec_iff wf idx (ix1 e) i) rfl rfl

/-- The dimension numbers of a segment sum into a one-column matrix `[N, 1]`: updates `[E, 1]`, index column `[E, 1]`. -/
abbrev addRowDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Update row `e` lands on row `i` exactly when the `e`-th index, read signed, is `i`'s row. -/
theorem resultIdx?_row_iff {N E w : Nat} (wf : ScatterDims.WF ⟨2, ![N, 1]⟩ ⟨2, ![E, 1]⟩ ⟨2, ![E, 1]⟩ [1] [0] [0] 1)
    (idx : IVec ⟨2, ![E, 1]⟩ w) (j : (⟨2, ![E, 1]⟩ : Shape).Idx) (i : (⟨2, ![N, 1]⟩ : Shape).Idx) :
    (addRowDims N E wf).resultIdx? j idx = some i ↔ (idx (ix2 (j 0) (0 : Fin 1))).toInt = ((i 0).val : ℤ) := by
  have hi0 : (i 0).val < N := idx2_lt0 i
  have hi1 : (i 1).val < 1 := idx2_lt1 i
  have hj1 : (j 1).val < 1 := idx2_lt1 j
  have hstart0 : (addRowDims N E wf).start j idx 0 = (idx (ix2 (j 0) (0 : Fin 1))).toInt := by
    unfold ScatterDims.start
    rw [dif_pos (show (0 : Fin 2) ∈ (addRowDims N E wf).scatterDimsToOperandDims from List.mem_singleton.mpr rfl)]
    have hsi : (addRowDims N E wf).siIdx j ⟨List.idxOf (0 : Fin 2) (addRowDims N E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowDims N E wf).window j 0 = 0 := by
    unfold ScatterDims.window
    rw [dif_neg (by simp [ScatterDims.sKept, Shape.kept])]
  have hstart1 : (addRowDims N E wf).start j idx 1 = 0 := by
    unfold ScatterDims.start
    rw [dif_neg (by simp [ScatterDims.sKept, Shape.kept])]
  have hwin1 : (addRowDims N E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have hh := h 0
      simp only [hstart0, hwin0] at h0 hh
      omega
    · intro he
      funext a
      refine Fin.ext ?_
      match a with
      | ⟨0, _⟩ =>
        show ((addRowDims N E wf).start j idx 0 + ((addRowDims N E wf).window j 0 : ℕ)).toNat = (i 0).val
        rw [hstart0, hwin0]
        omega
      | ⟨1, _⟩ =>
        show ((addRowDims N E wf).start j idx 1 + ((addRowDims N E wf).window j 1 : ℕ)).toNat = (i 1).val
        rw [hstart1, hwin1]
        omega
  · rename_i h
    constructor
    · intro he; exact absurd he (by simp)
    · intro he
      exfalso
      apply h
      intro a
      match a with
      | ⟨0, _⟩ =>
        show 0 ≤ (addRowDims N E wf).start j idx 0 + ((addRowDims N E wf).window j 0 : ℕ)
          ∧ (addRowDims N E wf).start j idx 0 + ((addRowDims N E wf).window j 0 : ℕ) < (N : ℤ)
        rw [hstart0, hwin0]
        omega
      | ⟨1, _⟩ =>
        show 0 ≤ (addRowDims N E wf).start j idx 1 + ((addRowDims N E wf).window j 1 : ℕ)
          ∧ (addRowDims N E wf).start j idx 1 + ((addRowDims N E wf).window j 1 : ℕ) < ((1 : ℕ) : ℤ)
        rw [hstart1, hwin1]
        omega

/-- At exact arithmetic, row `i` of the segment sum into a one-column matrix is the operand's row plus the sum over
    all `e` of "update row `e` if the `e`-th index is `i`'s row, else 0". -/
theorem scatterAdd_row_apply {N E w : Nat} {φ : FTy} (wf : ScatterDims.WF ⟨2, ![N, 1]⟩ ⟨2, ![E, 1]⟩ ⟨2, ![E, 1]⟩ [1] [0] [0] 1)
    (x : FVec Ideal ⟨2, ![N, 1]⟩ φ) (idx : IVec ⟨2, ![E, 1]⟩ w) (upd : FVec Ideal ⟨2, ![E, 1]⟩ φ)
    (i : (⟨2, ![N, 1]⟩ : Shape).Idx) :
    Host.scatterAdd (addRowDims N E wf) x idx upd i
      = x i + ∑ e : Fin E, if (idx (ix2 e (0 : Fin 1))).toInt = ((i 0).val : ℤ) then upd (ix2 e (0 : Fin 1)) else 0 := by
  show Ideal.hostScatterAdd (addRowDims N E wf) x idx upd i = _
  unfold Ideal.hostScatterAdd
  congr 1
  rw [Finset.sum_filter]
  refine Fintype.sum_equiv idxEquivCol _ _ (fun j => ?_)
  obtain ⟨e, rfl⟩ : ∃ e, j = ix2 e (0 : Fin 1) := ⟨j 0, funext fun a => match a with
    | ⟨0, _⟩ => rfl
    | ⟨1, _⟩ => Fin.ext (by have := idx2_lt1 j; show (j 1).val = 0; omega)⟩
  exact if_congr (resultIdx?_row_iff wf idx (ix2 e (0 : Fin 1)) i) rfl rfl

end Scatter

end LibSegmentIdx

end
-- ==== Proof.Spec.lean ====
/-
  Graph convolution followed by a Gram matrix, as one function of the inputs.

  Nodes 0 … 16383 carry feature rows x i ∈ EReal^64.  There are 540672 messages e (the 524288 given edges followed
  by one self-loop per node); message e reads row `s e` and is added into the row whose number is the integer
  `tgt e` (a message whose target is no row number lands nowhere).  Every node i has a factor `dv i`
  (the inverse square root of its in-degree, or 0).

  * proj i j = ∑ₖ x i k · W k j                                    the projected features
  * the reference scales message e by both ends' factors and sums:
        refAgg i j = ∑ₑ [tgt e = i] proj (s e) j · (dv (s e) · dv i)
  * the kernel scales each projected row by its own factor first, sums, and scales the sum by the target's factor:
        kerAgg i j = dv i · ∑ₑ [tgt e = i] (proj (s e) j · dv (s e))
  * act a i j = max (a i j + b j) 0, and the result is the Gram matrix gram h i i' = ∑ₖ h i k · h i' k.

  The two aggregates agree as soon as every factor is a non-negative real: such a factor distributes over a finite
  sum of extended reals whatever the summands, and multiplication on the extended reals is associative and
  commutative.  No finiteness of x, W or b is needed.

  The last three definitions state what each of the three tiled kernels computes on whole arrays, entry by entry.
-/
import Idealize.ShloMosaic.Lib.ValueIdx
import Idealize.ShloMosaic.PureOps.Ideal.Laws

noncomputable section

open scoped BigOperators

namespace Cert.Spec

open Idealize.ShloMosaic Idealize.ShloMosaic.ValueIdx

section Graph

variable (x : Fin 16384 → Fin 64 → EReal) (W : Fin 64 → Fin 64 → EReal) (b : Fin 64 → EReal)
variable (dv : Fin 16384 → EReal) (s : Fin 540672 → Fin 16384) (tgt : Fin 540672 → ℤ)

/-- The projected features, x · W. -/
def proj (i : Fin 16384) (j : Fin 64) : EReal := ∑ k : Fin 64, x i k * W k j

/-- The reference's aggregate: each message scaled by the factors of both its ends. -/
def refAgg (i : Fin 16384) (j : Fin 64) : EReal :=
  ∑ e : Fin 540672, if tgt e = ((i : ℕ) : ℤ) then proj x W (s e) j * (dv (s e) * dv i) else 0

/-- The kernel's aggregate: rows scaled by their own factor, summed, the sum scaled by the target's factor. -/
def kerAgg (i : Fin 16384) (j : Fin 64) : EReal :=
  dv i * ∑ e : Fin 540672, if tgt e = ((i : ℕ) : ℤ) then proj x W (s e) j * dv (s e) else 0

/-- Bias, then the positive part. -/
def act (a : Fin 16384 → Fin 64 → EReal) (i : Fin 16384) (j : Fin 64) : EReal := max (a i j + b j) 0

/-- The Gram matrix of the rows. -/
def gram (h : Fin 16384 → Fin 64 → EReal) (i i' : Fin 16384) : EReal := ∑ k : Fin 64, h i k * h i' k

end Graph

/-! ## What each tiled kernel computes, on whole arrays -/

/-- Rows of x · W, row i scaled by the i-th entry of the column d. -/
def lin (x : (⟨2, ![16384, 64]⟩ : Shape).Idx → EReal) (W : (⟨2, ![64, 64]⟩ : Shape).Idx → EReal)
    (d : (⟨2, ![16384, 1]⟩ : Shape).Idx → EReal) : (⟨2, ![16384, 64]⟩ : Shape).Idx → EReal :=
  fun i => (∑ k : Fin 64, x (ix2 (i 0) k) * W (ix2 k (i 1))) * d (ix2 (i 0) (0 : Fin 1))

/-- The row b added to every row of h, then the positive part. -/
def biasRelu (h : (⟨2, ![16384, 64]⟩ : Shape).Idx → EReal) (b : (⟨2, ![1, 64]⟩ : Shape).Idx → EReal) :
    (⟨2, ![16384, 64]⟩ : Shape).Idx → EReal :=
  fun i => max (h i + b (ix2 (0 : Fin 1) (i 1))) 0

/-- All inner products of two rows of h. -/
def outer (h : (⟨2, ![16384, 64]⟩ : Shape).Idx → EReal) : (⟨2, ![16384, 16384]⟩ : Shape).Idx → EReal :=
  fun i => ∑ k : Fin 64, h (ix2 (i 0) k) * h (ix2 (i 1) k)

end Cert.Spec

end
-- ==== Proof.RefMsg.lean ====
/-
  The reference's messages, read at an entry.

  Message e is row `s e` of the projected features x · W, every entry scaled by the product of the factors of the
  message's two ends, where `s e` is the row the wrapped and clamped source word names and the target's end is the
  row the wrapped and clamped target word names.  Both factors and the row come from gathers, and a gather reads
  the entry (or row) its clamped index word names.
-/
import proofs.«122015_j3745211482437_2_alg».proof.Proof.RefStages
import proofs.«122015_j3745211482437_2_alg».proof.Proof.RefWords
import proofs.«122015_j3745211482437_2_alg».proof.Proof.LibRowGather
import proofs.«122015_j3745211482437_2_alg».proof.Proof.LibSegmentIdx
import proofs.«122015_j3745211482437_2_alg».proof.Proof.Spec

noncomputable section
open scoped BigOperators
namespace Cert.ReferenceIdeal.RefMsg
open Idealize.ShloMosaic Idealize.ShloMosaic.ValueIdx Cert.ReferenceIdeal Cert.ReferenceIdeal.ReadP
open Cert.ReferenceIdeal.Facts₀ Cert.ReferenceIdeal.RefStages Cert.Prelude

/-- A gather from a vector of 16384 entries by an index column, at row e: the entry the clamped index word names. -/
theorem gather_vec_clamp (x : FVec Ideal S16384 .f32) (idx : IVec S540672x1 32) (e : Fin 540672) (v : BitVec 32)
    (h : idx (ix2 e (0 : Fin 1)) = v) :
    Host.gather gather_S16384_S540672x1_S540672_n_0_n_n_0_1_1 x idx (ix1 e) = x (ix1 (clamp v)) := by
  subst h
  exact LibSegmentIdx.gather_vec_apply (N := 16384) (E := 540672) (by decide)
    gather_S16384_S540672x1_S540672_n_0_n_n_0_1_1_wf x idx (ix1 e)

/-- A gather of whole rows of a 16384 × 64 matrix by an index column, at (e, j): column j of the row the clamped
    index word names. -/
theorem gather_rows_clamp (x : FVec Ideal S16384x64 .f32) (idx : IVec S540672x1 32) (e : Fin 540672) (j : Fin 64)
    (v : BitVec 32) (h : idx (ix2 e (0 : Fin 1)) = v) :
    Host.gather gather_S16384x64_S540672x1_S540672x64_1_0_n_n_0_1_164 x idx (ix2 e j) = x (ix2 (clamp v) j) := by
  subst h
  exact LibRowGather.gather_rows_apply (N := 16384) (D := 64) (E := 540672) (by decide)
    gather_S16384x64_S540672x1_S540672x64_1_0_n_n_0_1_164_wf x idx e j

variable (x : FVec Ideal Cert.KernelIdeal.S16384x64 .f32) (ei : IVec Cert.KernelIdeal.S2x524288 32)
  (W : FVec Ideal Cert.KernelIdeal.S64x64 .f32)

/-- The source's factor of message e. -/
theorem v21_at (e : Fin 540672) :
    val_main_v21 (F := Ideal) ei (ix1 e) = dinvT ei (ix1 (clamp (wrap (srcT ei (ix1 e))))) :=
  (gather_vec_clamp _ _ e _ (v20_at ei e)).trans (congrFun (v14_eq ei) _)

/-- The target's factor of message e, as the reference reads it. -/
theorem v28_at (e : Fin 540672) :
    val_main_v28 (F := Ideal) ei (ix1 e) = dinvT ei (ix1 (clamp (wrap (dstT ei (ix1 e))))) :=
  (gather_vec_clamp _ _ e _ (v27_at ei e)).trans (congrFun (v14_eq ei) _)

/-- The projected features are x · W. -/
theorem v30_at (p : Fin 16384) (j : Fin 64) :
    val_main_v30 (F := Ideal) x W (ix2 p j) = Spec.proj (fun p k => x (ix2 p k)) (fun k j => W (ix2 k j)) p j := by
  rw [val_main_v30_apply]
  unfold Spec.proj
  refine Finset.sum_congr rfl (fun k _ => ?_)
  have hl : lidx_main_v30 (ix2 p j) k = ix2 p k := funext fun a => match a with
    | ⟨0, _⟩ => rfl
    | ⟨1, _⟩ => rfl
  have hr : ridx_main_v30 (ix2 p j) k = ix2 k j := funext fun a => match a with
    | ⟨0, _⟩ => rfl
    | ⟨1, _⟩ => rfl
  rw [hl, hr]

/-- Message e at column j: the projected row of its source, scaled by both ends' factors. -/
theorem v40_at (e : Fin 540672) (j : Fin 64) :
    val_main_v40 (F := Ideal) x ei W (ix2 e j)
      = Spec.proj (fun p k => x (ix2 p k)) (fun k j => W (ix2 k j)) (clamp (wrap (srcT ei (ix1 e)))) j
        * (dinvT ei (ix1 (clamp (wrap (srcT ei (ix1 e))))) * dinvT ei (ix1 (clamp (wrap (dstT ei (ix1 e)))))) := by
  have h39 : idx_main_v39 (ix2 e j) = ix2 e (0 : Fin 1) := funext fun a => match a with
    | ⟨0, _⟩ => rfl
    | ⟨1, _⟩ => rfl
  have h38 : idx_main_v38 (ix2 e (0 : Fin 1)) = ix1 e := idx_col e
  rw [val_main_v40_apply, Ideal.mulf_def, val_main_v39_apply, h39, val_main_v38_apply, h38, val_main_v29_apply,
    Ideal.mulf_def, v21_at, v28_at]
  congr 1
  unfold val_main_v37
  rw [gather_rows_clamp _ _ e j _ (v36_at ei e), v30_at]

end Cert.ReferenceIdeal.RefMsg
end
-- ==== Proof.LibRowScatter.lean ====
/-
  An accumulating scatter of whole rows, read at an entry.

  Update rows upd : [E, D] are summed into the rows of a matrix x : [N, D] that an integer column idx : [E, 1]
  names (a segment sum of rows).  Entry (e, d) of the updates lands on entry (i, j) of the result exactly when
  the e-th index, read as a signed integer and NOT clamped, equals i, and d = j; an index outside [0, N) lands
  nowhere.  Hence, at exact arithmetic, entry (i, j) of the scattered sum is the operand's entry plus the sum
  over all e of "upd (e, j) if the e-th index equals i, else 0".
-/
import Idealize.ShloMosaic.Lib.ValueIdx
import Idealize.ShloMosaic.PureOps.Ideal.Laws

noncomputable section

open scoped BigOperators

namespace LibRowScatter

open Idealize.ShloMosaic Idealize.ShloMosaic.ValueIdx

/-- The dimension numbers of a segment sum of rows into a matrix `[N, D]`: updates `[E, D]`, index column `[E, 1]`. -/
abbrev addRowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Update entry `(e, d)` lands on entry `(i, j)` exactly when the `e`-th index, read signed, is `i` and `d = j`. -/
theorem resultIdx?_rows_iff {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx) :
    (addRowsDims N D E wf).resultIdx? j idx = some i
      ↔ (idx (ix2 (j 0) (0 : Fin 1))).toInt = ((i 0).val : ℤ) ∧ (j 1).val = (i 1).val := by
  have hi0 : (i 0).val < N := idx2_lt0 i
  have hi1 : (i 1).val < D := idx2_lt1 i
  have hj1 : (j 1).val < D := idx2_lt1 j
  have hstart0 : (addRowsDims N D E wf).start j idx 0 = (idx (ix2 (j 0) (0 : Fin 1))).toInt := by
    unfold ScatterDims.start
    rw [dif_pos (show (0 : Fin 2) ∈ (addRowsDims N D E wf).scatterDimsToOperandDims from List.mem_singleton.mpr rfl)]
    have hsi : (addRowsDims N D E wf).siIdx j ⟨List.idxOf (0 : Fin 2) (addRowsDims N D E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowsDims N D E wf).window j 0 = 0 := by
    unfold ScatterDims.window
    rw [dif_neg (by simp [ScatterDims.sKept, Shape.kept])]
  have hstart1 : (addRowsDims N D E wf).start j idx 1 = 0 := by
    unfold ScatterDims.start
    rw [dif_neg (by simp [ScatterDims.sKept, Shape.kept])]
  have hwin1 : (addRowsDims N D E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have h1 := congrArg (fun f => (f 1).val) he
      have hh := h 0
      simp only [hstart0, hwin0] at h0 hh
      simp only [hstart1, hwin1] at h1
      constructor
      · omega
      · omega
    · rintro ⟨he, hd⟩
      funext a
      refine Fin.ext ?_
      match a with
      | ⟨0, _⟩ =>
        show ((addRowsDims N D E wf).start j idx 0 + ((addRowsDims N D E wf).window j 0 : ℕ)).toNat = (i 0).val
        rw [hstart0, hwin0]
        omega
      | ⟨1, _⟩ =>
        show ((addRowsDims N D E wf).start j idx 1 + ((addRowsDims N D E wf).window j 1 : ℕ)).toNat = (i 1).val
        rw [hstart1, hwin1]
        omega
  · rename_i h
    constructor
    · intro he; exact absurd he (by simp)
    · rintro ⟨he, hd⟩
      exfalso
      apply h
      intro a
      match a with
      | ⟨0, _⟩ =>
        show 0 ≤ (addRowsDims N D E wf).start j idx 0 + ((addRowsDims N D E wf).window j 0 : ℕ)
          ∧ (addRowsDims N D E wf).start j idx 0 + ((addRowsDims N D E wf).window j 0 : ℕ) < (N : ℤ)
        rw [hstart0, hwin0]
        omega
      | ⟨1, _⟩ =>
        show 0 ≤ (addRowsDims N D E wf).start j idx 1 + ((addRowsDims N D E wf).window j 1 : ℕ)
          ∧ (addRowsDims N D E wf).start j idx 1 + ((addRowsDims N D E wf).window j 1 : ℕ) < ((D : ℕ) : ℤ)
        rw [hstart1, hwin1]
        omega

/-- At exact arithmetic, entry `(i, j)` of the segment sum of rows is the operand's entry plus the sum over all
    `e` of "update entry `(e, j)` if the `e`-th index is `i`, else 0". -/
theorem scatterAdd_rows_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (i : Fin N) (j : Fin D) :
    Host.scatterAdd (addRowsDims N D E wf) x idx upd (ix2 i j)
      = x (ix2 i j) + ∑ e : Fin E, if (idx (ix2 e (0 : Fin 1))).toInt = ((i : ℕ) : ℤ) then upd (ix2 e j) else 0 := by
  show Ideal.hostScatterAdd (addRowsDims N D E wf) x idx upd (ix2 i j) = _
  unfold Ideal.hostScatterAdd
  congr 1
  rw [Finset.sum_filter, sum_idx2]
  refine Finset.sum_congr rfl (fun e _ => ?_)
  have hcond : ∀ d : Fin D, ((addRowsDims N D E wf).resultIdx? (ix2 e d) idx = some (ix2 i j))
      ↔ ((idx (ix2 e (0 : Fin 1))).toInt = ((i : ℕ) : ℤ) ∧ d = j) := by
    intro d
    rw [resultIdx?_rows_iff wf idx (ix2 e d) (ix2 i j)]
    exact and_congr Iff.rfl ⟨fun h => Fin.ext h, fun h => congrArg Fin.val h⟩
  by_cases hP : (idx (ix2 e (0 : Fin 1))).toInt = ((i : ℕ) : ℤ)
  · rw [if_pos hP]
    rw [Finset.sum_congr rfl (fun d _ => if_congr ((hcond d).trans (and_iff_right hP)) rfl rfl)]
    rw [Finset.sum_ite_eq' Finset.univ j (fun d => upd (ix2 e d))]
    simp
  · rw [if_neg hP]
    refine Finset.sum_eq_zero (fun d _ => ?_)
    rw [if_neg]
    intro h
    exact hP ((hcond d).mp h).1

end LibRowScatter

end
-- ==== Proof.Outs.lean ====
/-
  The two programs' results as functions of the four inputs.

  `refOut` is the reference: the Gram matrix of max(refAgg + b, 0), the graph data read off the edge list
  (the factor of node p is entry p of the factor vector; message e reads the row its wrapped and clamped source
  word names and is added into the row its target word names).
  `kerVal` is what the kernel's three tiled stages and the operations between them compute on whole arrays:
  the pre-scaled projection, its aggregate, bias and positive part, all inner products of rows.
-/
import proofs.«122015_j3745211482437_2_alg».proof.Proof.Spec
import proofs.«122015_j3745211482437_2_alg».proof.Proof.Prelude

noncomputable section

namespace Cert.Outs

open Idealize.ShloMosaic Idealize.ShloMosaic.ValueIdx Cert.KernelIdeal Cert.Prelude

/-- The reference's result. -/
def refOut (x : FVec Ideal S16384x64 .f32) (ei : IVec S2x524288 32) (W : FVec Ideal S64x64 .f32) (b : FVec Ideal S64 .f32) :
    FVec Ideal S16384x16384 .f32 :=
  fun i => Spec.gram (Spec.act (fun j => b (ix1 j))
    (Spec.refAgg (fun p k => x (ix2 p k)) (fun k j => W (ix2 k j)) (fun p => dinvT ei (ix1 p))
      (fun e => clamp (wrap (srcT ei (ix1 e)))) (fun e => (dstT ei (ix1 e)).toInt))) (i 0) (i 1)

/-- The kernel's result, stage by stage on whole arrays. -/
def kerVal (x : FVec Ideal S16384x64 .f32) (ei : IVec S2x524288 32) (W : FVec Ideal S64x64 .f32) (b : FVec Ideal S64 .f32) :
    FVec Ideal S16384x16384 .f32 :=
  Spec.outer (Spec.biasRelu (haggT (Spec.lin x W (dinvColT ei)) ei) (biasRowT b))

end Cert.Outs

end
-- ==== Proof.RefValue.lean ====
/-
  The reference's result as a function of its four inputs.

  Read outermost first.  The result at (p, q) is the inner product of rows p and q of the activated features
  (the second factor of the last product is the transposed matrix, so its entry (k, q) is entry (q, k)).
  The activated features are max(aggregate + bias, 0), the bias broadcast along the rows.  The aggregate at (i, j)
  is 0 plus the sum over all messages e of "message e's entry j if its target word, read signed, is i, else 0".
  Under that condition the target word is a row number, so the reference's factor for the target's end, read at
  the wrapped and clamped target word, is the factor of node i.  That is the specification's reference aggregate.
-/
import proofs.«122015_j3745211482437_2_alg».proof.Proof.RefMsg
import proofs.«122015_j3745211482437_2_alg».proof.Proof.LibRowScatter
import proofs.«122015_j3745211482437_2_alg».proof.Proof.Outs

noncomputable section
open scoped BigOperators
namespace Cert.ReferenceIdeal.RefValue
open Idealize.ShloMosaic Idealize.ShloMosaic.ValueIdx Cert.ReferenceIdeal Cert.ReferenceIdeal.ReadP
open Cert.ReferenceIdeal.Facts₀ Cert.ReferenceIdeal.RefStages Cert.ReferenceIdeal.RefMsg Cert.Prelude

variable (x : FVec Ideal Cert.KernelIdeal.S16384x64 .f32) (ei : IVec Cert.KernelIdeal.S2x524288 32)
  (W : FVec Ideal Cert.KernelIdeal.S64x64 .f32) (b : FVec Ideal Cert.KernelIdeal.S64 .f32)

/-- The aggregate at (i, j): the sum of the messages whose target word is i. -/
theorem v43_at (i : Fin 16384) (j : Fin 64) :
    val_main_v43 (F := Ideal) x ei W (ix2 i j)
      = Spec.refAgg (fun p k => x (ix2 p k)) (fun k j => W (ix2 k j)) (fun p => dinvT ei (ix1 p))
          (fun e => clamp (wrap (srcT ei (ix1 e)))) (fun e => (dstT ei (ix1 e)).toInt) i j := by
  unfold val_main_v43
  refine (LibRowScatter.scatterAdd_rows_apply (N := 16384) (D := 64) (E := 540672)
    scatter_S16384x64_S540672x1_S540672x64_1_0_0_1_wf (val_main_v41 (F := Ideal)) (val_main_v42 (F := Ideal) ei)
    (val_main_v40 (F := Ideal) x ei W) i j).trans ?_
  rw [val_main_v41_apply, val_main_cst_8_apply, Ideal.ofBits_def, Ideal.ofBits_zero_f32, zero_add]
  unfold Spec.refAgg
  refine Finset.sum_congr rfl (fun e _ => ?_)
  rw [v42_at]
  by_cases h : (dstT ei (ix1 e)).toInt = ((i : ℕ) : ℤ)
  · rw [if_pos h, if_pos h, v40_at, Cert.RefWords.clamp_wrap_of_toInt_eq _ i h]
  · rw [if_neg h, if_neg h]

/-- The activated features at (i, j). -/
theorem v47_at (i : Fin 16384) (j : Fin 64) :
    val_main_v47 (F := Ideal) x ei W b (ix2 i j)
      = Spec.act (fun j => b (ix1 j))
          (Spec.refAgg (fun p k => x (ix2 p k)) (fun k j => W (ix2 k j)) (fun p => dinvT ei (ix1 p))
            (fun e => clamp (wrap (srcT ei (ix1 e)))) (fun e => (dstT ei (ix1 e)).toInt)) i j := by
  have hb : idx_main_v44 (idx_main_v45 (ix2 i j)) = ix1 j := funext fun a => match a with
    | ⟨0, _⟩ => rfl
  rw [val_main_v47_apply, Ideal.maximumf_def, val_main_v46_apply, Ideal.addf_def, v43_at, val_main_v45_apply,
    val_main_v44_apply, hb, val_main_call1_v0_apply, val_main_call1_cst_apply, Ideal.ofBits_def, Ideal.ofBits_zero_f32]
  rfl

/-- The reference's result is the Gram matrix of the activated aggregate. -/
theorem val_eq : val_main_v49 (F := Ideal) x ei W b = Cert.Outs.refOut x ei W b := by
  funext i
  obtain ⟨p, q, rfl⟩ : ∃ p q : Fin 16384, i = ix2 p q := ⟨i 0, i 1, eq_ix2 (n0 := 16384) (n1 := 16384) i⟩
  rw [val_main_v49_apply]
  unfold Cert.Outs.refOut Spec.gram
  refine Finset.sum_congr rfl (fun k _ => ?_)
  have hl : lidx_main_v49 (ix2 p q) k = ix2 p k := funext fun a => match a with
    | ⟨0, _⟩ => rfl
    | ⟨1, _⟩ => rfl
  have hr : idx_main_v48 (ridx_main_v49 (ix2 p q) k) = ix2 q k := funext fun a => match a with
    | ⟨0, _⟩ => rfl
    | ⟨1, _⟩ => rfl
  rw [val_main_v48_apply, hl, hr]
  exact congrArg₂ (· * ·) (v47_at x ei W b p k) (v47_at x ei W b q k)

/-- The reference program's composed result term is the specified reference result of the four argument buffers. -/
theorem result_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v49 (F := Ideal) m' c
      = Cert.Outs.refOut (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) :=
  (val_main_v49_eq m' c).trans (val_eq _ _ _ _)

end Cert.ReferenceIdeal.RefValue
end
-- ==== Proof.LibMaskSums.lean ====
/-
  Sums over a finite index set restricted by a mask, as a pairwise ranking loss needs them.

  * A double sum of products u i · v j over the pairs with p i and q j factors into the product of the two
    masked single sums (any commutative semiring): this is what turns a sum over all (positive, negative)
    pairs into a product of two row sums.
  * On the extended reals, multiplying a finite sum by a non-negative REAL constant distributes over the sum,
    whatever the summands (infinite ones included).
  * A one-bit word is 0 or 1; widened to 32 bits it is the natural number 0 or 1, and a natural number below
    2^31 read back from its 32-bit word as a signed integer is itself: so a wrapping 32-bit count of at most
    2^31 - 1 mask bits is the true count.
-/
import Mathlib.Data.EReal.Operations
import Mathlib.Data.BitVec
import Mathlib.Algebra.BigOperators.Ring.Finset
import Mathlib.Algebra.Order.BigOperators.Group.Finset

namespace LibMaskSums

open Finset

/-- The sum of u i · v j over the pairs (i, j) with p i and q j is the product of the sum of the u i with p i
    and the sum of the v j with q j. -/
theorem sum_mask_mul {R : Type*} [CommSemiring R] {ι κ : Type*} [Fintype ι] [Fintype κ] (p : ι → Prop) (q : κ → Prop)
    [DecidablePred p] [DecidablePred q] (u : ι → R) (v : κ → R) :
    ∑ i, ∑ j, (if p i ∧ q j then u i * v j else 0) = (∑ i, if p i then u i else 0) * (∑ j, if q j then v j else 0) := by
  rw [Finset.sum_mul_sum]
  refine Finset.sum_congr rfl fun i _ => Finset.sum_congr rfl fun j _ => ?_
  by_cases hp : p i <;> by_cases hq : q j <;> simp [hp, hq]

/-- A non-negative real factor distributes over a finite sum of extended reals. -/
theorem sum_mul_coe_of_nonneg {ι : Type*} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- A one-bit word is 0 or 1. -/
theorem bit_cases (c : BitVec 1) : c = 0#1 ∨ c = 1#1 := by
  by_cases h : c = 1#1
  · exact Or.inr h
  · left
    have := c.isLt
    apply BitVec.eq_of_toNat_eq
    have h' : c.toNat ≠ 1 := fun e => h (BitVec.eq_of_toNat_eq (by simpa using e))
    simp; omega

/-- Flipping a bit (exclusive or with 1) sets it exactly when it was clear. -/
theorem xor_one_eq_one_iff (c : BitVec 1) : c ^^^ 1#1 = 1#1 ↔ ¬ c = 1#1 := by
  rcases bit_cases c with rfl | rfl <;> decide

/-- The complement of a bit is set exactly when the bit was clear. -/
theorem not_eq_one_iff (c : BitVec 1) : ~~~c = 1#1 ↔ ¬ c = 1#1 := by
  rcases bit_cases c with rfl | rfl <;> decide

/-- The conjunction of two bits is set exactly when both are. -/
theorem and_eq_one_iff (c d : BitVec 1) : c &&& d = 1#1 ↔ c = 1#1 ∧ d = 1#1 := by
  rcases bit_cases c with rfl | rfl <;> rcases bit_cases d with rfl | rfl <;> decide

/-- A bit widened to 32 bits is the natural number 0 or 1 as a word. -/
theorem setWidth_bit (c : BitVec 1) : c.setWidth 32 = ((if c = 1#1 then 1 else 0 : ℕ) : BitVec 32) := by
  rcases bit_cases c with rfl | rfl <;> decide

/-- A bit widened to 32 bits and read as a signed integer is 0 or 1. -/
theorem toInt_setWidth_bit (c : BitVec 1) : (c.setWidth 32).toInt = if c = 1#1 then 1 else 0 := by
  rcases bit_cases c with rfl | rfl <;> decide

/-- A natural number below 2^31, stored in a 32-bit word and read back signed, is itself. -/
theorem toInt_natCast_of_lt (n : ℕ) (h : n < 2 ^ 31) : ((n : BitVec 32)).toInt = (n : ℤ) := by
  have hn : ((n : BitVec 32)).toNat = n := by
    rw [BitVec.natCast_eq_ofNat, BitVec.toNat_ofNat]; omega
  rw [BitVec.toInt_eq_toNat_of_lt (by rw [hn]; omega), hn]

/-- The wrapping 32-bit sum, from zero, of the words 0 or 1 marking the pairs (i, j) with p i and q j, read back
    signed, is the number of marked i times the number of marked j, provided the index sets together hold fewer
    than 2^31 pairs. -/
theorem toInt_pair_count {ι κ : Type*} [Fintype ι] [Fintype κ] (p : ι → Prop) (q : κ → Prop)
    [DecidablePred p] [DecidablePred q] (hcard : Fintype.card ι * Fintype.card κ < 2 ^ 31) :
    ((0#32 + ∑ i, ∑ j, ((if p i ∧ q j then 1 else 0 : ℕ) : BitVec 32)).toInt : ℝ)
      = (∑ i, if p i then (1 : ℝ) else 0) * (∑ j, if q j then (1 : ℝ) else 0) := by
  have hb : ∑ i : ι, ∑ j : κ, (if p i ∧ q j then 1 else 0 : ℕ) < 2 ^ 31 := by
    refine lt_of_le_of_lt ?_ hcard
    calc ∑ i : ι, ∑ j : κ, (if p i ∧ q j then 1 else 0 : ℕ)
        ≤ ∑ _i : ι, ∑ _j : κ, 1 :=
          Finset.sum_le_sum fun i _ => Finset.sum_le_sum fun j _ => by split <;> omega
      _ = Fintype.card ι * Fintype.card κ := by simp
  have hw : (0#32 + ∑ i, ∑ j, ((if p i ∧ q j then 1 else 0 : ℕ) : BitVec 32))
      = ((∑ i : ι, ∑ j : κ, (if p i ∧ q j then 1 else 0 : ℕ) : ℕ) : BitVec 32) := by
    rw [show (0#32 : BitVec 32) = 0 from rfl, zero_add]
    push_cast
    rfl
  rw [hw, toInt_natCast_of_lt _ hb]
  have := sum_mask_mul (R := ℝ) p q (fun _ => 1) (fun _ => 1)
  simp only [mul_one] at this
  rw [← this]
  push_cast
  rfl

end LibMaskSums
-- ==== Proof.Algebra.lean ====
/-
  The two aggregates agree when every node factor is a non-negative real.

  kerAgg i j = dv i · ∑ₑ [tgt e = i] (proj (s e) j · dv (s e)) and
  refAgg i j = ∑ₑ [tgt e = i] proj (s e) j · (dv (s e) · dv i).
  A non-negative real factor distributes over a finite sum of extended reals whatever the summands; termwise the
  two sides then differ by associativity of the product, and by 0 · c = 0 where the message misses row i.
-/
import proofs.«122015_j3745211482437_2_alg».proof.Proof.Spec
import proofs.«122015_j3745211482437_2_alg».proof.Proof.LibMaskSums

open scoped BigOperators

namespace Cert.Spec

theorem kerAgg_eq_refAgg (x : Fin 16384 → Fin 64 → EReal) (W : Fin 64 → Fin 64 → EReal) (dv : Fin 16384 → EReal)
    (s : Fin 540672 → Fin 16384) (tgt : Fin 540672 → ℤ) (hdv : ∀ i, ∃ r : ℝ, 0 ≤ r ∧ dv i = (r : EReal)) :
    Cert.Spec.kerAgg x W dv s tgt = Cert.Spec.refAgg x W dv s tgt := by
  funext i j
  obtain ⟨r, hr, hri⟩ := hdv i
  unfold Cert.Spec.kerAgg Cert.Spec.refAgg
  rw [hri, mul_comm, ← LibMaskSums.sum_mul_coe_of_nonneg _ _ r hr]
  refine Finset.sum_congr rfl fun e _ => ?_
  by_cases h : tgt e = ((i : ℕ) : ℤ)
  · rw [if_pos h, if_pos h, mul_assoc]
  · rw [if_neg h, if_neg h, zero_mul]

end Cert.Spec
-- ==== Proof.DinvReal.lean ====
/-
  Every node factor is a non-negative real.

  The in-degree of node p is a sum, into 0, of ones over the messages whose target word names p: a natural number n.
  Where n = 0 the comparison n > 0 fails and the factor is the constant 0; where n > 0 the factor is the inverse
  square root of the positive real n, the real (√n)⁻¹ ≥ 0.
-/
import proofs.«122015_j3745211482437_2_alg».proof.Proof.Prelude
import proofs.«122015_j3745211482437_2_alg».proof.Proof.LibSegmentIdx
import Idealize.ShloMosaic.Lib.IdealHost

noncomputable section

open scoped BigOperators

namespace Cert.Prelude

open Idealize.ShloMosaic Idealize.ShloMosaic.ValueIdx Cert.KernelIdeal Cert.KernelIdeal.Facts₀ Cert.KernelIdeal.Facts

/-- A finite sum of ones and zeros on the extended reals is a natural number. -/
theorem sum_ones_nat {ι : Type*} (s : Finset ι) (P : ι → Prop) [DecidablePred P] :
    ∃ n : ℕ, ∑ e ∈ s, (if P e then (1 : EReal) else 0) = (((n : ℕ) : ℝ) : EReal) := by
  classical
  induction s using Finset.induction_on with
  | empty => exact ⟨0, by simp⟩
  | insert a s ha ih =>
    obtain ⟨n, hn⟩ := ih
    rw [Finset.sum_insert ha, hn]
    by_cases h : P a
    · refine ⟨n + 1, ?_⟩
      rw [if_pos h, Nat.cast_succ, EReal.coe_add, EReal.coe_one, add_comm]
    · exact ⟨n, by rw [if_neg h, zero_add]⟩

/-- The in-degree of a node is a natural number. -/
theorem degT_nat (ei : IVec S2x524288 32) (p : Fin 16384) : ∃ n : ℕ, degT ei (ix1 p) = (((n : ℕ) : ℝ) : EReal) := by
  unfold degT
  generalize broadcastInDim S540672x1 ![0] bcast_S540672_S540672x1_0 (dstT ei) = c
  obtain ⟨n, hn⟩ := sum_ones_nat (Finset.univ : Finset (Fin 540672)) (fun e => (c (ix2 e (0 : Fin 1))).toInt = (((ix1 p : S16384.Idx) 0).val : ℤ))
  refine ⟨n, ?_⟩
  refine (LibSegmentIdx.scatterAdd_vec_apply scatter_S16384_S540672x1_S540672_n_0_0_1_wf _ c _ (ix1 p)).trans ?_
  rw [broadcastInDim_scalar_apply, constant_apply, Ideal.ofBits_zero_f32, zero_add]
  refine Eq.trans (Finset.sum_congr rfl fun e _ => ?_) hn
  rw [broadcastInDim_scalar_apply, constant_apply, Ideal.ofBits_one_f32]

/-- The comparison "x > 0", the inverse square root and the choice between it and 0, at a natural number. -/
theorem factor_of_nat (n : ℕ) :
    ∃ r : ℝ, 0 ≤ r ∧ Scalar.select (Ideal.cmp .ogt (((n : ℕ) : ℝ) : EReal) 0) (Ideal.rsqrt (((n : ℕ) : ℝ) : EReal)) (0 : EReal) = (r : EReal) := by
  rcases Nat.eq_zero_or_pos n with h | h
  · subst h
    have hc : Ideal.cmp .ogt (((0 : ℕ) : ℝ) : EReal) 0 = 0#1 := by simp [Ideal.cmp]
    rw [hc, select_zero]
    exact ⟨0, le_rfl, rfl⟩
  · have hpos : (0 : ℝ) < (n : ℝ) := Nat.cast_pos.mpr h
    have hc : Ideal.cmp .ogt (((n : ℕ) : ℝ) : EReal) 0 = 1#1 := by
      simp [Ideal.cmp, h]
    rw [hc, select_one, Ideal.rsqrt_coe, if_neg (not_lt.mpr hpos.le), if_neg hpos.ne']
    exact ⟨(Real.sqrt (n : ℝ))⁻¹, inv_nonneg.mpr (Real.sqrt_nonneg _), rfl⟩

/-- The factor rule at an entry where the degree vector is a natural number and the zero vector is 0. -/
theorem factor_at {s : Shape} (d z : FVec Ideal s .f32) (i : s.Idx) (n : ℕ) (hd : d i = (((n : ℕ) : ℝ) : EReal)) (hz : z i = 0) :
    ∃ r : ℝ, 0 ≤ r ∧ select (cmpf (F := Ideal) .ogt d z) (Host.rsqrt (F := Ideal) d) z i = (r : EReal) := by
  rw [select_apply, cmpf_apply]
  show ∃ r : ℝ, 0 ≤ r ∧ Scalar.select (Ideal.cmp .ogt (d i) (z i)) (Ideal.rsqrt (d i)) (z i) = (r : EReal)
  rw [hd, hz]
  exact factor_of_nat n

/-- Every node factor is a non-negative real. -/
theorem dinvT_nonneg_real (ei : IVec Cert.KernelIdeal.S2x524288 32) (p : Fin 16384) :
    ∃ r : ℝ, 0 ≤ r ∧ Cert.Prelude.dinvT ei (ix1 p) = (r : EReal) := by
  obtain ⟨n, hn⟩ := degT_nat ei p
  unfold dinvT
  exact factor_at _ _ _ n hn (by rw [broadcastInDim_scalar_apply, constant_apply, Ideal.ofBits_zero_f32])

end Cert.Prelude

end
-- ==== Proof.KerTail.lean ====
/-
  The kernel's three stages on whole arrays compute the reference's result.

  Read at an entry, the kernel's aggregate of the pre-scaled rows is kerAgg: the row gather reads the row its
  wrapped and clamped source word names, the accumulating scatter adds message e into row p exactly when its
  target word, read signed, is p, and the result is scaled by the factor of p.  Every factor is a non-negative
  real, so kerAgg = refAgg; bias, positive part and the inner products of rows are then the same on both sides.
-/
import proofs.«122015_j3745211482437_2_alg».proof.Proof.Outs
import proofs.«122015_j3745211482437_2_alg».proof.Proof.Algebra
import proofs.«122015_j3745211482437_2_alg».proof.Proof.DinvReal
import proofs.«122015_j3745211482437_2_alg».proof.Proof.LibRowScatter
import proofs.«122015_j3745211482437_2_alg».proof.Proof.LibRowGather
import Idealize.ShloMosaic.Lib.ValueLayout
import Idealize.ShloMosaic.Lib.Pipeline.Value
import Idealize.ShloMosaic.Lib.IdealHost

noncomputable section

open scoped BigOperators

namespace Cert.Outs

open Idealize.ShloMosaic Idealize.ShloMosaic.ValueIdx Cert.KernelIdeal Cert.KernelIdeal.Facts₀ Cert.KernelIdeal.Facts Cert.Prelude

/-- A vector [a] cast to the column [a, 1] reads, at (p, 0), the vector's entry p. -/
theorem cast_col {α : Type} {a : ℕ} (v : (⟨1, ![a]⟩ : Shape).Idx → α) (h : (⟨1, ![a]⟩ : Shape).ShapeCasts ⟨2, ![a, 1]⟩)
    (p : Fin a) : shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

/-- The column [16384, 1] broadcast along the 64 features reads, at (p, j), the column's entry p. -/
theorem bcast_col64 {α : Type} (v : S16384x1.Idx → α) (p : Fin 16384) (j : Fin 64) :
    broadcastInDim S16384x64 ![0, 1] bcast_S16384x1_S16384x64_0_1 v (ix2 p j) = v (ix2 p (0 : Fin 1)) := by
  refine broadcastInDim_apply _ _ v (ix2 p j) (ix2 p (0 : Fin 1)) fun a => ?_
  match a with
  | ⟨0, _⟩ => rfl
  | ⟨1, _⟩ => rfl

/-- A vector of 540672 words as a column reads, at (e, 0), the vector's entry e. -/
theorem bcast_idxcol {α : Type} (v : S540672.Idx → α) (e : Fin 540672) :
    broadcastInDim S540672x1 ![0] bcast_S540672_S540672x1_0 v (ix2 e (0 : Fin 1)) = v (ix1 e) := by
  refine broadcastInDim_apply _ _ v (ix2 e (0 : Fin 1)) (ix1 e) fun a => ?_
  match a with
  | ⟨0, _⟩ => rfl

theorem dinvColT_apply (ei : IVec S2x524288 32) (p : Fin 16384) : dinvColT ei (ix2 p (0 : Fin 1)) = dinvT ei (ix1 p) := by
  unfold dinvColT
  exact cast_col _ _ p

theorem dstColT_apply (ei : IVec S2x524288 32) (e : Fin 540672) : dstColT ei (ix2 e (0 : Fin 1)) = dstT ei (ix1 e) := by
  unfold dstColT
  exact bcast_idxcol _ e

theorem srcColT_apply (ei : IVec S2x524288 32) (e : Fin 540672) : srcColT ei (ix2 e (0 : Fin 1)) = wrap (srcT ei (ix1 e)) := by
  unfold srcColT
  generalize srcT ei = sv
  rw [bcast_idxcol]
  rfl

/-- The kernel's aggregate of the pre-scaled projection, read at an entry, is kerAgg of the graph data. -/
theorem haggT_apply (x : FVec Ideal S16384x64 .f32) (ei : IVec S2x524288 32) (W : FVec Ideal S64x64 .f32) (p : Fin 16384) (j : Fin 64) :
    haggT (Spec.lin x W (dinvColT ei)) ei (ix2 p j)
      = Spec.kerAgg (fun p k => x (ix2 p k)) (fun k j => W (ix2 k j)) (fun p => dinvT ei (ix1 p))
          (fun e => clamp (wrap (srcT ei (ix1 e)))) (fun e => (dstT ei (ix1 e)).toInt) p j := by
  unfold haggT Spec.kerAgg
  rw [mulf_apply, bcast_col64, dinvColT_apply]
  refine congrArg (dinvT ei (ix1 p) * ·) ?_
  refine (LibRowScatter.scatterAdd_rows_apply scatter_S16384x64_S540672x1_S540672x64_1_0_0_1_wf _ _ _ p j).trans ?_
  rw [broadcastInDim_scalar_apply, constant_apply, Ideal.ofBits_zero_f32, zero_add]
  refine Finset.sum_congr rfl fun e _ => ?_
  rw [dstColT_apply]
  refine if_congr Iff.rfl ?_ rfl
  refine (LibRowGather.gather_rows_apply (by decide) gather_S16384x64_S540672x1_S540672x64_1_0_n_n_0_1_164_wf _ _ e j).trans ?_
  rw [srcColT_apply]
  beta_reduce
  generalize wrap (srcT ei (ix1 e)) = sv
  show (∑ k : Fin 64, x (ix2 (clamp sv) k) * W (ix2 k j)) * dinvColT ei (ix2 (clamp sv) (0 : Fin 1))
    = (∑ k : Fin 64, x (ix2 (clamp sv) k) * W (ix2 k j)) * dinvT ei (ix1 (clamp sv))
  rw [dinvColT_apply]

/-- The kernel's result is the reference's. -/
theorem kerVal_eq_refOut (x : FVec Ideal Cert.KernelIdeal.S16384x64 .f32) (ei : IVec Cert.KernelIdeal.S2x524288 32)
    (W : FVec Ideal Cert.KernelIdeal.S64x64 .f32) (b : FVec Ideal Cert.KernelIdeal.S64 .f32) :
    Cert.Outs.kerVal x ei W b = Cert.Outs.refOut x ei W b := by
  funext i
  unfold kerVal refOut Spec.outer Spec.gram
  refine Finset.sum_congr rfl fun k _ => ?_
  have hk : ∀ p : Fin 16384, Spec.biasRelu (haggT (Spec.lin x W (dinvColT ei)) ei) (biasRowT b) (ix2 p k)
      = Spec.act (fun j => b (ix1 j))
          (Spec.refAgg (fun p k => x (ix2 p k)) (fun k j => W (ix2 k j)) (fun p => dinvT ei (ix1 p))
            (fun e => clamp (wrap (srcT ei (ix1 e)))) (fun e => (dstT ei (ix1 e)).toInt)) p k := by
    intro p
    unfold Spec.biasRelu Spec.act
    rw [haggT_apply, Spec.kerAgg_eq_refAgg _ _ _ _ _ (fun q => dinvT_nonneg_real ei q)]
    show max (_ + biasRowT b (ix2 (0 : Fin 1) k)) 0 = _
    unfold biasRowT
    rw [shapeCast_a_1a_apply]
  exact congrArg₂ (· * ·) (hk (i 0)) (hk (i 1))

end Cert.Outs

end
-- ==== Proof.KiGlue.lean ====
/-
  The operations between the kernel program's stages, read back as whole-array terms.

  Before the first stage the program computes, from the edge list alone, the message sources, the message
  targets and the column of the nodes' factors; these are the prelude's terms of the launched edge list.  Between
  the first and the second stage it gathers the first stage's rows at the sources, sums them into a zero matrix at
  the targets and scales every row of the sum by the target's factor, and it reshapes the bias to a row; these are
  the prelude's aggregate of the first stage's result and the prelude's bias row.

  A value passed to the called selection function is stored at the buffer's own type; that transport is the
  identity, since the buffer's type is literally the value's.
-/
import proofs.«122015_j3745211482437_2_alg».proof.Proof.KiVals
import proofs.«122015_j3745211482437_2_alg».proof.Proof.Prelude
import Idealize.ShloMosaic.Lib.StableHlo.Run

set_option maxRecDepth 16384

noncomputable section

namespace Cert.KernelIdeal.Glue

open Idealize.ShloMosaic Idealize.ShloMosaic.TcCoe Idealize.SL.Sem Idealize.ShloMosaic.StableHlo
open Cert.KernelIdeal Cert.KernelIdeal.Gen Cert.KernelIdeal.Hand Cert.Prelude

/-! ## The transports at the called function's buffers are the identity -/

section Casts

theorem toBuf_v14 (h1 h2 h3) (v : FVec Ideal S16384 .f32) :
    (TRef.of (sig := sig) (T := ⟨S16384, .f32⟩) main_v14 h1 h2 h3).toBuf (Val := Elt Ideal) v = v := rfl
theorem ofBuf_v12 (h1 h2 h3) (v : IVec S16384 1) :
    (TRef.of (sig := sig) (T := ⟨S16384, .i1⟩) main_v12 h1 h2 h3).ofBuf (Val := Elt Ideal) v = v := rfl
theorem ofBuf_v13 (h1 h2 h3) (v : FVec Ideal S16384 .f32) :
    (TRef.of (sig := sig) (T := ⟨S16384, .f32⟩) main_v13 h1 h2 h3).ofBuf (Val := Elt Ideal) v = v := rfl
theorem ofBuf_call0_v1 (h1 h2 h3) (v : FVec Ideal S16384 .f32) :
    (TRef.of (sig := sig) (T := ⟨S16384, .f32⟩) main_call0_v1 h1 h2 h3).ofBuf (Val := Elt Ideal) v = v := rfl
theorem toBuf_call0_v1 (h1 h2 h3) (v : FVec Ideal S16384 .f32) :
    (TRef.of (sig := sig) (T := ⟨S16384, .f32⟩) main_call0_v1 h1 h2 h3).toBuf (Val := Elt Ideal) v = v := rfl
theorem ofBuf_call0_v0 (h1 h2 h3) (v : FVec Ideal S_ .f32) :
    (TRef.of (sig := sig) (T := ⟨S_, .f32⟩) main_call0_v0 h1 h2 h3).ofBuf (Val := Elt Ideal) v = v := rfl
theorem toBuf_call0_v0 (h1 h2 h3) (v : FVec Ideal S_ .f32) :
    (TRef.of (sig := sig) (T := ⟨S_, .f32⟩) main_call0_v0 h1 h2 h3).toBuf (Val := Elt Ideal) v = v := rfl
theorem ofBuf_cst_2 (h1 h2 h3) (v : FVec Ideal S_ .f32) :
    (TRef.of (sig := sig) (T := ⟨S_, .f32⟩) main_cst_2 h1 h2 h3).ofBuf (Val := Elt Ideal) v = v := rfl

end Casts

variable (m : (ℓ : Loc nD τ sig) → Buf (Elt Ideal) ℓ) (c : Dev nD)

/-! ## Before the first stage -/

/-- The message sources. -/
theorem v5_eq : W3 (F := Ideal) m c main_v5 = srcT (m ((c : Thread nD τ).loc main_arg1)) := by
  dsimp only [W3, Gen.V3, Gen.V2, Gen.V1, Gen.V0]
  after_results
  rfl

/-- The message targets. -/
theorem v6_eq : W3 (F := Ideal) m c main_v6 = dstT (m ((c : Thread nD τ).loc main_arg1)) := by
  dsimp only [W3, Gen.V3, Gen.V2, Gen.V1, Gen.V0]
  after_results
  rfl

/-- The nodes' factors. -/
theorem v14_eq : W3 (F := Ideal) m c main_v14 = dinvT (m ((c : Thread nD τ).loc main_arg1)) := by
  dsimp only [W3, Gen.V3, Gen.V2, Gen.V1, Gen.V0]
  after_results
  rw [toBuf_v14, ofBuf_v12, ofBuf_v13, ofBuf_call0_v1, toBuf_call0_v1, ofBuf_call0_v0, toBuf_call0_v0, ofBuf_cst_2]
  rfl

/-- The nodes' factors as a column. -/
theorem v15_eq : W3 (F := Ideal) m c main_v15 = dinvColT (m ((c : Thread nD τ).loc main_arg1)) := by
  dsimp only [W3, Gen.V3, Gen.V2, Gen.V1, Gen.V0]
  after_results
  rw [toBuf_v14, ofBuf_v12, ofBuf_v13, ofBuf_call0_v1, toBuf_call0_v1, ofBuf_call0_v0, toBuf_call0_v0, ofBuf_cst_2]
  rfl

/-! ## Between the first and the second stage -/

/-- The bias as a one-row matrix. -/
theorem v29_eq : W5 (F := Ideal) m c main_v29 = biasRowT (m ((c : Thread nD τ).loc main_arg3)) := by
  dsimp only [W5]
  after_results
  rw [W4_of m c main_arg3 (by decide), W3_arg m c main_arg3 (by decide) (by decide) (by decide)]
  rfl

set_option maxHeartbeats 4000000 in
/-- The aggregate of the first stage's result. -/
theorem v28_eq : W5 (F := Ideal) m c main_v28 = haggT (o4 m c) (m ((c : Thread nD τ).loc main_arg1)) := by
  dsimp only [W5]
  after_results_simp
  rw [W4_same, W4_of m c main_v15 (by decide), W4_of m c main_v5 (by decide), W4_of m c main_v6 (by decide),
    v15_eq, v5_eq, v6_eq]
  rfl

end Cert.KernelIdeal.Glue

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibMatmulNT.lean ====
/-
  A TensorCore product of an M×K matrix with an N×K matrix, each contracted along its SECOND axis (the right factor
  enters transposed without being transposed in memory), at exact arithmetic, read at an entry: the accumulator's
  entry plus the sum over the contracted axis of the products of the left factor's row entries with the right
  factor's ROW entries,

      (acc + l · rᵀ)[j₀, j₁] = acc[j₀, j₁] + Σ_k l[j₀, k] · r[j₁, k].

  Stated for any contraction record between two-axis shapes whose operand indices are "row of the result, contracted
  position" and "column of the result, contracted position" — four facts that hold by computation for the record such
  a product prints. Nothing is asked of the entries: at exact arithmetic the product is this sum by definition, and the
  only step is to re-index the one-axis contraction by its coordinate.
-/
import Idealize.ShloMosaic.Lib.ValueIdx
import Idealize.ShloMosaic.PureOps.Ideal.Laws

noncomputable section

namespace LibMatmulNT

open Idealize.ShloMosaic Idealize.ShloMosaic.ValueIdx

/-- `tpu.matmul` of an M×K by an N×K matrix, both contracted on axis 1, onto an accumulator, at entry `j`:
    `acc[j] + Σ_k l[j₀,k] · r[j₁,k]`. -/
theorem matmul_nt_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (acc : FVec Ideal ⟨2, ![M, N]⟩ .f32) (j : (⟨2, ![M, N]⟩ : Shape).Idx) :
    FloatOps.matmul (F := Ideal) D prec l r acc j
      = acc j + ∑ k : Fin K, l (ix2 (n0 := M) (n1 := K) (j 0) k) * r (ix2 (n0 := N) (n1 := K) (j 1) k) := by
  rw [Ideal.matmul_apply, ← Equiv.sum_comp (contrEquiv1 D K hr hs).symm]
  refine congrArg (acc j + ·) (Finset.sum_congr rfl fun k _ => ?_)
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := N) (n1 := K) (j 1) k := funext fun a => Fin.ext (by
    match a with
    | ⟨0, _⟩ => exact hr0 _ _
    | ⟨1, _⟩ => exact (hr1 _ _).trans hk)
  rw [e1, e2]

/-- The same into the zero splat: the accumulator's entry is `0`, so the entry is the bare sum. -/
theorem matmul_nt_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := N) (n1 := K) (j 1) k) := by
  rw [matmul_nt_apply D hr hs hl0 hl1 hr0 hr1]
  show Ideal.ofBits .f32 0x00000000#32 + _ = _
  rw [Ideal.ofBits_zero_f32, zero_add]

end LibMatmulNT

end
-- ==== Proof.PayIdx.lean ====
/-
  The arithmetic of the three tiled stages on one block, read at an entry at exact arithmetic.

  * stage 0: a 2048×64 block of x times the 64×64 matrix W, each row then scaled by its entry of the 2048×1
    column block: (∑ₖ x p k · W k q) · d p.
  * stage 1: the one-row bias added to every row of the block, then the positive part: max (h p q + b q) 0.
  * stage 2: all inner products of a row of one block with a row of another: ∑ₖ u p k · v q k.

  At exact arithmetic narrowing a value to fewer bits is the identity, a product into a zero accumulator is the
  bare sum over the contracted axis, a cast to the same shape is the identity, and a broadcast along a unit axis
  reads the operand's one entry on that axis.
-/
import proofs.«122015_j3745211482437_2_alg».proof.Proof.Gen.KernelIdeal.Skeleton
import proofs.«122015_j3745211482437_2_alg».proof.Proof.LibMatmulIdx
import proofs.«122015_j3745211482437_2_alg».proof.Proof.LibMatmulNT
import Idealize.ShloMosaic.Lib.ValueLayout
import Idealize.ShloMosaic.Lib.Pipeline.Value

noncomputable section

open scoped BigOperators

namespace Cert.KernelIdeal.PayIdx

open Idealize.ShloMosaic Idealize.ShloMosaic.ValueIdx Cert.KernelIdeal Cert.KernelIdeal.Gen

/-- A 2048×1 column broadcast to 2048×64 reads, at (p, q), the column's entry p. -/
theorem bcast_col (v : (⟨2, ![2048, 1]⟩ : Shape).Idx → EReal) (h : (⟨2, ![2048, 1]⟩ : Shape).Broadcasts ⟨2, ![2048, 64]⟩)
    (p : Fin 2048) (q : Fin 64) : broadcastTo ⟨2, ![2048, 64]⟩ v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The block of x times W, each row scaled by its entry of the column block. -/
theorem pay0 (v0 : Vec Ideal S2048x64 .f32) (v2 : Vec Ideal S64x64 .f32) (v5 : Vec Ideal S2048x1 .f32) (p : Fin 2048) (q : Fin 64) :
    k0_pay1 (F := Ideal) v0 v2 v5 (ix2 p q) = (∑ k : Fin 64, v0 (ix2 p k) * v2 (ix2 k q)) * v5 (ix2 p (0 : Fin 1)) := by
  unfold k0_pay1
  simp only [matmul]
  rw [mulf_apply]
  rw [shapeCast_self, shapeCast_self]
  rw [bcast_col]
  refine congrArg (· * v5 (ix2 p (0 : Fin 1))) ?_
  refine (LibMatmulIdx.matmul2_apply dot_S2048x64_S64x64_S2048x64_1_0_0_1_n_n rfl rfl (fun _ _ => rfl) (fun _ _ => rfl)
    (fun _ _ => rfl) (fun _ _ => rfl) none _ _ (ix2 p q)).trans ?_
  rfl

/-- The one-row bias added to every row, then the positive part. -/
theorem pay1 (v0 : Vec Ideal S2048x64 .f32) (v2 : Vec Ideal S1x64 .f32) (p : Fin 2048) (q : Fin 64) :
    k1_pay1 (F := Ideal) v0 v2 (ix2 p q) = max (v0 (ix2 p q) + v2 (ix2 (0 : Fin 1) q)) 0 := by
  unfold k1_pay1
  rw [truncf_apply, maximumf_apply, addf_apply, shapeCast_self, shapeCast_self, broadcastTo_1b_ab_apply, broadcast_apply]
  show max _ (Ideal.ofBits .f32 0x00000000#32) = _
  rw [Ideal.ofBits_zero_f32]

/-- All inner products of a row of one block with a row of the other. -/
theorem pay2 (v0 v2 : Vec Ideal S2048x64 .bf16) (p q : Fin 2048) :
    k2_pay1 (F := Ideal) v0 v2 (ix2 p q) = ∑ k : Fin 64, v0 (ix2 p k) * v2 (ix2 q k) := by
  unfold k2_pay1
  simp only [matmul]
  rw [shapeCast_self, shapeCast_self]
  exact LibMatmulNT.matmul_nt_zero_apply dot_S2048x64_S2048x64_S2048x2048_1_1_0_0_n_n rfl rfl (fun _ _ => rfl) (fun _ _ => rfl)
    (fun _ _ => rfl) (fun _ _ => rfl) none _ _ (ix2 p q)

end Cert.KernelIdeal.PayIdx

end
-- ==== Proof.KiStage0.lean ====
/-
  The first tiled stage on whole arrays: after its eight points the result array holds, at every entry (r, q),
  the product of row r of x with column q of W, scaled by entry r of the factor column.

  Point t finds rows 2048·t … 2048·t + 2047 of x, all of W and the same rows of the factor column, and writes the
  same rows of the result; the eight row blocks cover the 16384 rows (row r is in block r / 2048).
-/
import proofs.«122015_j3745211482437_2_alg».proof.Proof.KiReg0
import proofs.«122015_j3745211482437_2_alg».proof.Proof.Spec
import proofs.«122015_j3745211482437_2_alg».proof.Proof.PayIdx
import Idealize.ShloMosaic.Lib.Pipeline.Value

set_option maxRecDepth 16384

noncomputable section

namespace Cert.KernelIdeal.Stage

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

theorem zero_offsets : (![0, 0] : Fin 2 → Nat) = fun _ => 0 := funext fun a => by fin_cases a <;> rfl

/-- The block indices of the four windows at point t: x, the factor column and the result move by row block t,
    W stays. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The stage's arithmetic on blocks that hold the arrays' entries around entry i is the whole-array value at i. -/
theorem lin_block (X : S16384x64.Idx → EReal) (Wm : S64x64.Idx → EReal) (Dc : S16384x1.Idx → EReal)
    (x0 : Vec Ideal S2048x64 .f32) (x1 : Vec Ideal S64x64 .f32) (x2 : Vec Ideal S2048x1 .f32)
    (j : S2048x64.Idx) (i : S16384x64.Idx)
    (h0 : ∀ k : Fin 64, x0 (ix2 (j 0) k) = X (ix2 (i 0) k))
    (h1 : ∀ k : Fin 64, x1 (ix2 k (j 1)) = Wm (ix2 k (i 1)))
    (h2 : x2 (ix2 (j 0) (0 : Fin 1)) = Dc (ix2 (i 0) (0 : Fin 1))) :
    k0_pay1 (F := Ideal) x0 x1 x2 j = Cert.Spec.lin X Wm Dc i := by
  refine (congrArg (k0_pay1 (F := Ideal) x0 x1 x2) (eq_ix2 (n0 := 2048) (n1 := 64) j)).trans ?_
  refine (PayIdx.pay0 x0 x1 x2 (j 0) (j 1)).trans ?_
  unfold Cert.Spec.lin
  rw [h2]
  exact congrArg (· * Dc (ix2 (i 0) (0 : Fin 1))) (Finset.sum_congr rfl fun k _ => by rw [h0 k, h1 k])

/-- What point t writes back is block t of the whole-array value. -/
theorem flushed0_eq (c : Dev nD) (t : Fin cfg0.N) :
    (dat0 (F := Ideal) V c).flushed 3 t
      = ((cfg0.win 3).blk t).view.read (Elt Ideal) (Cert.Spec.lin (V c main_arg0) (V c main_arg2) (V c main_v15)) := by
  show (cfg0.win 3).cut (grid0.coords t) ((dat0 V c).after 3 t) = _
  rw [after0_3]
  unfold out0_3
  rw [View.canon_unit_zero zero_offsets]
  simp only [View.ld_unit_zero (S := S2048x64) zero_offsets, View.ld_unit_zero (S := S64x64) zero_offsets,
    View.ld_unit_zero (S := S2048x1) zero_offsets]
  obtain ⟨e00, e01, e10, e11, e20, e21, e30, e31⟩ := block_indices0 t
  funext j
  show k0_pay1 (F := Ideal) (iblk0 V c 0 t) (iblk0 V c 1 t) (iblk0 V c 2 t) j
    = Cert.Spec.lin (V c main_arg0) (V c main_arg2) (V c main_v15) (((cfg0.win 3).blk t).view.emb j)
  refine lin_block _ _ _ _ _ _ j _ (fun k => ?_) (fun k => ?_) ?_
  · show V c main_arg0 (((cfg0.win 0).blk t).view.emb (ix2 (j 0) k)) = _
    refine congrArg (V c main_arg0) (funext fun a => Fin.ext ?_)
    match a with
    | ⟨0, _⟩ =>
      show win0_0.index t (0 : Fin 2) * 2048 + 1 * (j 0).val = win0_3.index t (0 : Fin 2) * 2048 + 1 * (j 0).val
      rw [e00, e30]
    | ⟨1, _⟩ =>
      show win0_0.index t (1 : Fin 2) * 64 + 1 * k.val = k.val
      rw [e01]; omega
  · show V c main_arg2 (((cfg0.win 1).blk t).view.emb (ix2 k (j 1))) = _
    refine congrArg (V c main_arg2) (funext fun a => Fin.ext ?_)
    match a with
    | ⟨0, _⟩ =>
      show win0_1.index t (0 : Fin 2) * 64 + 1 * k.val = k.val
      rw [e10]; omega
    | ⟨1, _⟩ =>
      show win0_1.index t (1 : Fin 2) * 64 + 1 * (j 1).val = win0_3.index t (1 : Fin 2) * 64 + 1 * (j 1).val
      rw [e11, e31]
  · show V c main_v15 (((cfg0.win 2).blk t).view.emb (ix2 (j 0) (0 : Fin 1))) = _
    refine congrArg (V c main_v15) (funext fun a => Fin.ext ?_)
    match a with
    | ⟨0, _⟩ =>
      show win0_2.index t (0 : Fin 2) * 2048 + 1 * (j 0).val = win0_3.index t (0 : Fin 2) * 2048 + 1 * (j 0).val
      rw [e20, e30]
    | ⟨1, _⟩ =>
      show win0_2.index t (1 : Fin 2) * 1 + 1 * 0 = 0
      rw [e21]

/-- An entry of the result is in point t's block iff each coordinate is in the block's range on its axis. -/
theorem mem_blk0 (t : Fin cfg0.N) (i : S16384x64.Idx) :
    i ∈ ((cfg0.win 3).blk t).view.set
      ↔ ∀ a : Fin 2, win0_3.index t a * S2048x64.size a ≤ (i a).val ∧ (i a).val < win0_3.index t a * S2048x64.size a + S2048x64.size a := by
  show i ∈ ((View.whole main_v16).slice (win0_3.rect t)).set ↔ _
  rw [View.set_slice_whole, Rect.mem_set_unit]
  exact Iff.rfl

/-- Every entry of the result is in some point's block: row r is in row block r / 2048. -/
theorem cover0 (i : S16384x64.Idx) : ∃ t : Fin cfg0.N, (cfg0.win 3).flush t = true ∧ i ∈ ((cfg0.win 3).blk t).view.set := by
  have hN : grid0.N = 8 := N_0
  have hi0 : (i 0).val < 16384 := (i 0).isLt
  have hi1 : (i 1).val < 64 := (i 1).isLt
  have ht : (i 0).val / 2048 < cfg0.N := by show (i 0).val / 2048 < grid0.N; omega
  obtain ⟨e00, e01, e10, e11, e20, e21, e30, e31⟩ := block_indices0 ⟨(i 0).val / 2048, ht⟩
  refine ⟨⟨(i 0).val / 2048, ht⟩, flush0_3 _, ?_⟩
  rw [mem_blk0]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e30]
    show (i 0).val / 2048 * 2048 ≤ (i 0).val ∧ (i 0).val < (i 0).val / 2048 * 2048 + 2048
    omega
  | ⟨1, _⟩ =>
    show win0_3.index ⟨(i 0).val / 2048, ht⟩ (1 : Fin 2) * 64 ≤ (i 1).val
      ∧ (i 1).val < win0_3.index ⟨(i 0).val / 2048, ht⟩ (1 : Fin 2) * 64 + 64
    rw [e31]
    omega

/-- The result array after the stage. -/
theorem stage0 (c : Dev nD) :
    (dat0 (F := Ideal) V c).arrAt 3 cfg0.N = Cert.Spec.lin (V c main_arg0) (V c main_arg2) (V c main_v15) :=
  (dat0 (F := Ideal) V c).arrAt_eq_of_cover 3 (Cert.Spec.lin (V c main_arg0) (V c main_arg2) (V c main_v15))
    (fun t _ => flushed0_eq V c t) cover0

end Cert.KernelIdeal.Stage

end
-- ==== Proof.KiStage1.lean ====
/-
  The second tiled stage on whole arrays: after its eight points the result array holds, at every entry (r, q),
  the positive part of the aggregate's entry plus the bias of column q.

  Point t finds rows 2048·t … 2048·t + 2047 of the aggregate and the one-row bias, and writes the same rows of the
  result; the eight row blocks cover the 16384 rows (row r is in block r / 2048).
-/
import proofs.«122015_j3745211482437_2_alg».proof.Proof.KiReg1
import proofs.«122015_j3745211482437_2_alg».proof.Proof.Spec
import proofs.«122015_j3745211482437_2_alg».proof.Proof.PayIdx
import Idealize.ShloMosaic.Lib.Pipeline.Value

set_option maxRecDepth 16384

noncomputable section

namespace Cert.KernelIdeal.Stage

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

theorem zero_offsets1 : (![0, 0] : Fin 2 → Nat) = fun _ => 0 := funext fun a => by fin_cases a <;> rfl

/-- The block indices of the three windows at point t: the aggregate and the result move by row block t, the bias
    stays. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The stage's arithmetic on blocks that hold the arrays' entries around entry i is the whole-array value at i. -/
theorem biasRelu_block (H : S16384x64.Idx → EReal) (B : S1x64.Idx → EReal)
    (x0 : Vec Ideal S2048x64 .f32) (x1 : Vec Ideal S1x64 .f32)
    (j : S2048x64.Idx) (i : S16384x64.Idx)
    (h0 : x0 (ix2 (j 0) (j 1)) = H i)
    (h1 : x1 (ix2 (0 : Fin 1) (j 1)) = B (ix2 (0 : Fin 1) (i 1))) :
    k1_pay1 (F := Ideal) x0 x1 j = Cert.Spec.biasRelu H B i := by
  refine (congrArg (k1_pay1 (F := Ideal) x0 x1) (eq_ix2 (n0 := 2048) (n1 := 64) j)).trans ?_
  refine (PayIdx.pay1 x0 x1 (j 0) (j 1)).trans ?_
  unfold Cert.Spec.biasRelu
  rw [h0, h1]

/-- What point t writes back is block t of the whole-array value. -/
theorem flushed1_eq (c : Dev nD) (t : Fin cfg1.N) :
    (dat1 (F := Ideal) V c).flushed 2 t
      = ((cfg1.win 2).blk t).view.read (Elt Ideal) (Cert.Spec.biasRelu (V c main_v28) (V c main_v29)) := by
  show (cfg1.win 2).cut (grid1.coords t) ((dat1 V c).after 2 t) = _
  rw [after1_2]
  unfold out1_2
  rw [View.canon_unit_zero zero_offsets1]
  simp only [View.ld_unit_zero (S := S2048x64) zero_offsets1, View.ld_unit_zero (S := S1x64) zero_offsets1]
  obtain ⟨e00, e01, e10, e11, e20, e21⟩ := block_indices1 t
  funext j
  show k1_pay1 (F := Ideal) (iblk1 V c 0 t) (iblk1 V c 1 t) j
    = Cert.Spec.biasRelu (V c main_v28) (V c main_v29) (((cfg1.win 2).blk t).view.emb j)
  refine biasRelu_block _ _ _ _ j _ ?_ ?_
  · show V c main_v28 (((cfg1.win 0).blk t).view.emb (ix2 (j 0) (j 1))) = _
    refine congrArg (V c main_v28) (funext fun a => Fin.ext ?_)
    match a with
    | ⟨0, _⟩ =>
      show win1_0.index t (0 : Fin 2) * 2048 + 1 * (j 0).val = win1_2.index t (0 : Fin 2) * 2048 + 1 * (j 0).val
      rw [e00, e20]
    | ⟨1, _⟩ =>
      show win1_0.index t (1 : Fin 2) * 64 + 1 * (j 1).val = win1_2.index t (1 : Fin 2) * 64 + 1 * (j 1).val
      rw [e01, e21]
  · show V c main_v29 (((cfg1.win 1).blk t).view.emb (ix2 (0 : Fin 1) (j 1))) = _
    refine congrArg (V c main_v29) (funext fun a => Fin.ext ?_)
    match a with
    | ⟨0, _⟩ =>
      show win1_1.index t (0 : Fin 2) * 1 + 1 * 0 = 0
      rw [e10]
    | ⟨1, _⟩ =>
      show win1_1.index t (1 : Fin 2) * 64 + 1 * (j 1).val = win1_2.index t (1 : Fin 2) * 64 + 1 * (j 1).val
      rw [e11, e21]

/-- An entry of the result is in point t's block iff each coordinate is in the block's range on its axis. -/
theorem mem_blk1 (t : Fin cfg1.N) (i : S16384x64.Idx) :
    i ∈ ((cfg1.win 2).blk t).view.set
      ↔ ∀ a : Fin 2, win1_2.index t a * S2048x64.size a ≤ (i a).val ∧ (i a).val < win1_2.index t a * S2048x64.size a + S2048x64.size a := by
  show i ∈ ((View.whole main_v30).slice (win1_2.rect t)).set ↔ _
  rw [View.set_slice_whole, Rect.mem_set_unit]
  exact Iff.rfl

/-- Every entry of the result is in some point's block: row r is in row block r / 2048. -/
theorem cover1 (i : S16384x64.Idx) : ∃ t : Fin cfg1.N, (cfg1.win 2).flush t = true ∧ i ∈ ((cfg1.win 2).blk t).view.set := by
  have hN : grid1.N = 8 := N_1
  have hi0 : (i 0).val < 16384 := (i 0).isLt
  have hi1 : (i 1).val < 64 := (i 1).isLt
  have ht : (i 0).val / 2048 < cfg1.N := by show (i 0).val / 2048 < grid1.N; omega
  obtain ⟨e00, e01, e10, e11, e20, e21⟩ := block_indices1 ⟨(i 0).val / 2048, ht⟩
  refine ⟨⟨(i 0).val / 2048, ht⟩, flush1_2 _, ?_⟩
  rw [mem_blk1]
  intro a
  match a with
  | ⟨0, _⟩ =>
    show win1_2.index ⟨(i 0).val / 2048, ht⟩ (0 : Fin 2) * 2048 ≤ (i 0).val
      ∧ (i 0).val < win1_2.index ⟨(i 0).val / 2048, ht⟩ (0 : Fin 2) * 2048 + 2048
    rw [e20]
    show (i 0).val / 2048 * 2048 ≤ (i 0).val ∧ (i 0).val < (i 0).val / 2048 * 2048 + 2048
    omega
  | ⟨1, _⟩ =>
    show win1_2.index ⟨(i 0).val / 2048, ht⟩ (1 : Fin 2) * 64 ≤ (i 1).val
      ∧ (i 1).val < win1_2.index ⟨(i 0).val / 2048, ht⟩ (1 : Fin 2) * 64 + 64
    rw [e21]
    omega

/-- The result array after the stage. -/
theorem stage1 (c : Dev nD) :
    (dat1 (F := Ideal) V c).arrAt 2 cfg1.N = Cert.Spec.biasRelu (V c main_v28) (V c main_v29) :=
  (dat1 (F := Ideal) V c).arrAt_eq_of_cover 2 (Cert.Spec.biasRelu (V c main_v28) (V c main_v29))
    (fun t _ => flushed1_eq V c t) cover1

end Cert.KernelIdeal.Stage

end
-- ==== Proof.KiStage2.lean ====
/-
  The third tiled stage on whole arrays: after its 64 points the result array holds, at every entry (r, r'),
  the inner product of rows r and r' of the activations.

  Point t = 8·a + b finds rows 2048·a … 2048·a + 2047 and rows 2048·b … 2048·b + 2047 of the activations and
  writes block (a, b) of the result; the 8 × 8 blocks cover the 16384 × 16384 entries (entry (r, r') is in block
  (r / 2048, r' / 2048)).
-/
import proofs.«122015_j3745211482437_2_alg».proof.Proof.KiReg2
import proofs.«122015_j3745211482437_2_alg».proof.Proof.Spec
import proofs.«122015_j3745211482437_2_alg».proof.Proof.PayIdx
import Idealize.ShloMosaic.Lib.Pipeline.Value

set_option maxRecDepth 16384

noncomputable section

namespace Cert.KernelIdeal.Stage

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

theorem zero_offsets2 : (![0, 0] : Fin 2 → Nat) = fun _ => 0 := funext fun a => by fin_cases a <;> rfl

/-- The block indices of the three windows at point t: the first row block is t / 8, the second t % 8, the result's
    block is the pair. -/
theorem block_indices2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = t.val % 8 :=
  (by decide +kernel : ∀ t : Fin grid2.N, _)

/-- The stage's arithmetic on two row blocks that hold the rows i names is the whole-array value at i. -/
theorem outer_block (H : S16384x64.Idx → EReal) (x0 x1 : Vec Ideal S2048x64 .bf16)
    (j : S2048x2048.Idx) (i : S16384x16384.Idx)
    (h0 : ∀ k : Fin 64, x0 (ix2 (j 0) k) = H (ix2 (i 0) k))
    (h1 : ∀ k : Fin 64, x1 (ix2 (j 1) k) = H (ix2 (i 1) k)) :
    k2_pay1 (F := Ideal) x0 x1 j = Cert.Spec.outer H i := by
  refine (congrArg (k2_pay1 (F := Ideal) x0 x1) (eq_ix2 (n0 := 2048) (n1 := 2048) j)).trans ?_
  refine (PayIdx.pay2 x0 x1 (j 0) (j 1)).trans ?_
  unfold Cert.Spec.outer
  exact Finset.sum_congr rfl fun k _ => by rw [h0 k, h1 k]

/-- What point t writes back is block t of the whole-array value. -/
theorem flushed2_eq (c : Dev nD) (t : Fin cfg2.N) :
    (dat2 (F := Ideal) V c).flushed 2 t
      = ((cfg2.win 2).blk t).view.read (Elt Ideal) (Cert.Spec.outer (V c main_v30)) := by
  show (cfg2.win 2).cut (grid2.coords t) ((dat2 V c).after 2 t) = _
  rw [after2_2]
  unfold out2_2
  rw [View.canon_unit_zero zero_offsets2]
  simp only [View.ld_unit_zero (S := S2048x64) zero_offsets2]
  obtain ⟨e00, e01, e10, e11, e20, e21⟩ := block_indices2 t
  funext j
  show k2_pay1 (F := Ideal) (iblk2 V c 0 t) (iblk2 V c 1 t) j
    = Cert.Spec.outer (V c main_v30) (((cfg2.win 2).blk t).view.emb j)
  refine outer_block _ _ _ j _ (fun k => ?_) (fun k => ?_)
  · show V c main_v30 (((cfg2.win 0).blk t).view.emb (ix2 (j 0) k)) = _
    refine congrArg (V c main_v30) (funext fun a => Fin.ext ?_)
    match a with
    | ⟨0, _⟩ =>
      show win2_0.index t (0 : Fin 2) * 2048 + 1 * (j 0).val = win2_2.index t (0 : Fin 2) * 2048 + 1 * (j 0).val
      rw [e00, e20]
    | ⟨1, _⟩ =>
      show win2_0.index t (1 : Fin 2) * 64 + 1 * k.val = k.val
      rw [e01]; omega
  · show V c main_v30 (((cfg2.win 1).blk t).view.emb (ix2 (j 1) k)) = _
    refine congrArg (V c main_v30) (funext fun a => Fin.ext ?_)
    match a with
    | ⟨0, _⟩ =>
      show win2_1.index t (0 : Fin 2) * 2048 + 1 * (j 1).val = win2_2.index t (1 : Fin 2) * 2048 + 1 * (j 1).val
      rw [e10, e21]
    | ⟨1, _⟩ =>
      show win2_1.index t (1 : Fin 2) * 64 + 1 * k.val = k.val
      rw [e11]; omega

/-- An entry of the result is in point t's block iff each coordinate is in the block's range on its axis. -/
theorem mem_blk2 (t : Fin cfg2.N) (i : S16384x16384.Idx) :
    i ∈ ((cfg2.win 2).blk t).view.set
      ↔ ∀ a : Fin 2, win2_2.index t a * S2048x2048.size a ≤ (i a).val ∧ (i a).val < win2_2.index t a * S2048x2048.size a + S2048x2048.size a := by
  show i ∈ ((View.whole main_v31).slice (win2_2.rect t)).set ↔ _
  rw [View.set_slice_whole, Rect.mem_set_unit]
  exact Iff.rfl

/-- Every entry of the result is in some point's block: entry (r, r') is in block (r / 2048, r' / 2048). -/
theorem cover2 (i : S16384x16384.Idx) : ∃ t : Fin cfg2.N, (cfg2.win 2).flush t = true ∧ i ∈ ((cfg2.win 2).blk t).view.set := by
  have hN : grid2.N = 64 := N_2
  have hi0 : (i 0).val < 16384 := (i 0).isLt
  have hi1 : (i 1).val < 16384 := (i 1).isLt
  have ht : 8 * ((i 0).val / 2048) + (i 1).val / 2048 < cfg2.N := by
    show 8 * ((i 0).val / 2048) + (i 1).val / 2048 < grid2.N; omega
  obtain ⟨e00, e01, e10, e11, e20, e21⟩ := block_indices2 ⟨8 * ((i 0).val / 2048) + (i 1).val / 2048, ht⟩
  refine ⟨⟨8 * ((i 0).val / 2048) + (i 1).val / 2048, ht⟩, flush2_2 _, ?_⟩
  rw [mem_blk2]
  intro a
  match a with
  | ⟨0, _⟩ =>
    show win2_2.index ⟨8 * ((i 0).val / 2048) + (i 1).val / 2048, ht⟩ (0 : Fin 2) * 2048 ≤ (i 0).val
      ∧ (i 0).val < win2_2.index ⟨8 * ((i 0).val / 2048) + (i 1).val / 2048, ht⟩ (0 : Fin 2) * 2048 + 2048
    rw [e20]
    show (8 * ((i 0).val / 2048) + (i 1).val / 2048) / 8 * 2048 ≤ (i 0).val
      ∧ (i 0).val < (8 * ((i 0).val / 2048) + (i 1).val / 2048) / 8 * 2048 + 2048
    omega
  | ⟨1, _⟩ =>
    show win2_2.index ⟨8 * ((i 0).val / 2048) + (i 1).val / 2048, ht⟩ (1 : Fin 2) * 2048 ≤ (i 1).val
      ∧ (i 1).val < win2_2.index ⟨8 * ((i 0).val / 2048) + (i 1).val / 2048, ht⟩ (1 : Fin 2) * 2048 + 2048
    rw [e21]
    show (8 * ((i 0).val / 2048) + (i 1).val / 2048) % 8 * 2048 ≤ (i 1).val
      ∧ (i 1).val < (8 * ((i 0).val / 2048) + (i 1).val / 2048) % 8 * 2048 + 2048
    omega

/-- The result array after the stage. -/
theorem stage2 (c : Dev nD) :
    (dat2 (F := Ideal) V c).arrAt 2 cfg2.N = Cert.Spec.outer (V c main_v30) :=
  (dat2 (F := Ideal) V c).arrAt_eq_of_cover 2 (Cert.Spec.outer (V c main_v30))
    (fun t _ => flushed2_eq V c t) cover2

end Cert.KernelIdeal.Stage

end
-- ==== Proof.KiValue.lean ====
/-
  The kernel program's result as a function of its four inputs.

  Each of the three tiled stages computes, on whole arrays, the function stated for it; the operations before and
  between the stages are the prelude's terms.  Chained: the first stage gives the projected features with row i
  scaled by node i's factor, the operations after it aggregate those rows and scale by the target's factor and
  reshape the bias, the second stage adds the bias and takes the positive part, and the third stage takes all
  inner products of rows.  No stage and no operation writes an argument, so every stage reads the launched inputs.
-/
import proofs.«122015_j3745211482437_2_alg».proof.Proof.KiGlue
import proofs.«122015_j3745211482437_2_alg».proof.Proof.KiStage0
import proofs.«122015_j3745211482437_2_alg».proof.Proof.KiStage1
import proofs.«122015_j3745211482437_2_alg».proof.Proof.KiStage2
import proofs.«122015_j3745211482437_2_alg».proof.Proof.Outs

set_option maxRecDepth 16384
noncomputable section
namespace Cert.KernelIdeal.Glue
open Idealize.ShloMosaic Idealize.ShloMosaic.TcCoe Idealize.SL.Sem Idealize.ShloMosaic.StableHlo
open Cert.KernelIdeal Cert.KernelIdeal.Gen Cert.KernelIdeal.Hand Cert.Prelude

variable (m : (ℓ : Loc nD τ sig) → Buf (Elt Ideal) ℓ) (c : Dev nD)

/-- The first stage's result: the projected features, row i scaled by node i's factor. -/
theorem o4_eq : o4 (F := Ideal) m c
    = Cert.Spec.lin (m ((c : Thread nD τ).loc main_arg0)) (m ((c : Thread nD τ).loc main_arg2))
        (dinvColT (m ((c : Thread nD τ).loc main_arg1))) := by
  unfold o4
  refine (Cert.KernelIdeal.Stage.stage0 (E3 m) c).trans ?_
  show Cert.Spec.lin (W3 m c main_arg0) (W3 m c main_arg2) (W3 m c main_v15) = _
  rw [W3_arg m c main_arg0 (by decide) (by decide) (by decide), W3_arg m c main_arg2 (by decide) (by decide) (by decide),
    v15_eq]

/-- The second stage's result: bias and positive part of the aggregate of the first stage's result. -/
theorem o6_eq : o6 (F := Ideal) m c
    = Cert.Spec.biasRelu (haggT (o4 m c) (m ((c : Thread nD τ).loc main_arg1))) (biasRowT (m ((c : Thread nD τ).loc main_arg3))) := by
  unfold o6
  refine (Cert.KernelIdeal.Stage.stage1 (E5 m) c).trans ?_
  show Cert.Spec.biasRelu (W5 m c main_v28) (W5 m c main_v29) = _
  rw [v28_eq, v29_eq]

/-- The kernel program's result, stage by stage. -/
theorem o7_eq : o7 (F := Ideal) m c
    = Cert.Outs.kerVal (m ((c : Thread nD τ).loc main_arg0)) (m ((c : Thread nD τ).loc main_arg1))
        (m ((c : Thread nD τ).loc main_arg2)) (m ((c : Thread nD τ).loc main_arg3)) := by
  unfold o7
  refine (Cert.KernelIdeal.Stage.stage2 (E6 m) c).trans ?_
  show Cert.Spec.outer (W6 m c main_v30) = _
  rw [W6_same, o6_eq, o4_eq]
  rfl

end Cert.KernelIdeal.Glue
end
-- ==== Proof.lean ====
/-
  A graph-convolution layer followed by a Gram matrix: relu(Â x W + b) · relu(Â x W + b)ᵀ, where Â scales message
  e from node s to node i by dv s · dv i, dv the inverse square roots of the in-degrees (self-loops included).

  The kernel factors the target's factor out of each node's sum: it scales the projected rows x W by their own
  factors in a first tiled stage, gathers and sums them between the stages, scales the sums by the targets' factors,
  adds the bias and takes the positive part in a second tiled stage, and forms all inner products of rows in a third.
  On the extended reals the two arrangements agree because every factor is a non-negative real number, and such a
  factor distributes over a finite sum whatever the summands; narrowing to a shorter float format is the identity
  there, and a matrix product is the same sum however it is tiled.  No finiteness of the inputs is used.

  The three frames: each program's main sequence runs to the end, faults nowhere, and leaves its four arguments as
  launched — for the two kernel programs from the run of the seven segments of their main sequence (three tiled stages
  among stretches of array operations; the third stage reads one array through two windows, each holding it at half
  the full share), for the reference from the run of its operations.  The idealization rewrote nothing.
-/
import proofs.«122015_j3745211482437_2_alg».proof.Defs
import proofs.«122015_j3745211482437_2_alg».proof.Proof.Gen.Kernel
import proofs.«122015_j3745211482437_2_alg».proof.Proof.Gen.KernelIdeal
import proofs.«122015_j3745211482437_2_alg».proof.Proof.Gen.ReferenceIdeal
import proofs.«122015_j3745211482437_2_alg».proof.Proof.Gen.Pre_finite_inputs
import proofs.«122015_j3745211482437_2_alg».proof.Proof.KnRun
import proofs.«122015_j3745211482437_2_alg».proof.Proof.KiRun
import proofs.«122015_j3745211482437_2_alg».proof.Proof.RefRun
import proofs.«122015_j3745211482437_2_alg».proof.Proof.RefValue
import proofs.«122015_j3745211482437_2_alg».proof.Proof.KerTail
import proofs.«122015_j3745211482437_2_alg».proof.Proof.KiValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Hand.frame (F := Bits) m ρ

/-- The idealized kernel program runs and leaves its arguments as launched. -/
theorem frame_ki : Cert.frame_KernelIdeal := fun m ρ _ => Cert.KernelIdeal.Hand.frame (F := Ideal) m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the same result array: the kernel's
    run ends at the three stages' composition on whole arrays, the reference's at its own term, and the two are one
    function of the arguments. -/
theorem algebraic : Cert.algebraic_KernelIdeal_ReferenceIdeal := by
  intro m ρ m' ρ' _ hagree
  refine ⟨fun c => Cert.Outs.kerVal (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Glue.o7_eq m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2]
    exact (Cert.Outs.kerVal_eq_refOut _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
